-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v35)) (v2 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_v53) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x128 : Shape := ⟨2, ![400000, 128]⟩
abbrev S128x128 : Shape := ⟨2, ![128, 128]⟩
abbrev S128 : Shape := ⟨1, ![128]⟩
abbrev S1200000 : Shape := ⟨1, ![1200000]⟩
abbrev S240000 : Shape := ⟨1, ![240000]⟩
abbrev S61440 : Shape := ⟨1, ![61440]⟩
abbrev S_ : Shape := ⟨0, ![]⟩

class Facts : Prop where
  bcast_S_S400000x128 : S_.BroadcastsInDim S400000x128 (![] : Fin 0 → Fin S400000x128.rank)
  reducesTo_S400000x128_S_d0_1 : S400000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128x128 .f32) (main_arg8 : FVec F S128x128 .f32) (main_arg9 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_v33

def fn {F : FTy → Type} [FloatOps F] (main_arg0 : FVec F S400000x128 .f32) (main_arg1 : FVec F S128x128 .f32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : IVec S1200000 32) (main_arg11 : IVec S1200000 32) (main_arg12 : IVec S240000 32) (main_arg13 : IVec S240000 32) (main_arg14 : IVec S61440 32) (main_arg15 : IVec S61440 32) : IVec S_ 1 :=
  let main_v0 : FVec F S400000x128 .f32 := Host.absf main_arg0
  let main_cst : FVec F S_ .f32 := constant S_ .f32 0x7F800000#32
  let main_v1 : FVec F S400000x128 .f32 := broadcastInDim S400000x128 ![] bcast_S_S400000x128 main_cst
  let main_v2 : IVec S400000x128 1 := cmpf .olt main_v0 main_v1
  let main_c : IVec S_ 1 := constantI S_ 1 1#1
  let main_v3 : IVec S_ 1 := (fun x v => Host.reduce IntOp.andi x v reducesTo_S400000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S400000x128 : Shape := ⟨2, ![400000, 128]⟩
abbrev S128x128 : Shape := ⟨2, ![128, 128]⟩
abbrev S128 : Shape := ⟨1, ![128]⟩
abbrev S1200000 : Shape := ⟨1, ![1200000]⟩
abbrev S240000 : Shape := ⟨1, ![240000]⟩
abbrev S61440 : Shape := ⟨1, ![61440]⟩
abbrev S_ : Shape := ⟨0, ![]⟩
abbrev S1200000x1 : Shape := ⟨2, ![1200000, 1]⟩
abbrev S1200000x128 : Shape := ⟨2, ![1200000, 128]⟩
abbrev S80000x128 : Shape := ⟨2, ![80000, 128]⟩
abbrev S80000 : Shape := ⟨1, ![80000]⟩
abbrev S80000x1 : Shape := ⟨2, ![80000, 1]⟩
abbrev S1x128 : Shape := ⟨2, ![1, 128]⟩
abbrev S10000x128 : Shape := ⟨2, ![10000, 128]⟩
abbrev S10000x1 : Shape := ⟨2, ![10000, 1]⟩
abbrev S240000x1 : Shape := ⟨2, ![240000, 1]⟩
abbrev S240000x128 : Shape := ⟨2, ![240000, 128]⟩
abbrev S16000x128 : Shape := ⟨2, ![16000, 128]⟩
abbrev S16000 : Shape := ⟨1, ![16000]⟩
abbrev S16000x1 : Shape := ⟨2, ![16000, 1]⟩
abbrev S4000x128 : Shape := ⟨2, ![4000, 128]⟩
abbrev S4000x1 : Shape := ⟨2, ![4000, 1]⟩
abbrev S61440x1 : Shape := ⟨2, ![61440, 1]⟩
abbrev S61440x128 : Shape := ⟨2, ![61440, 128]⟩
abbrev S4096x128 : Shape := ⟨2, ![4096, 128]⟩
abbrev S4096 : Shape := ⟨1, ![4096]⟩
abbrev S4096x1 : Shape := ⟨2, ![4096, 1]⟩

abbrev nBuf : Space → Nat
  | .hbm => 85
  | .vmem => 29
  | .smem => 0
  | _ => 0

abbrev bufTy : (tb : Table) → Fin (tcTables nBuf tb) → BufTy
  | .hbm, ⟨0, _⟩ => ⟨S400000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S1200000, .i32⟩
  | .hbm, ⟨11, _⟩ => ⟨S1200000, .i32⟩
  | .hbm, ⟨12, _⟩ => ⟨S240000, .i32⟩
  | .hbm, ⟨13, _⟩ => ⟨S240000, .i32⟩
  | .hbm, ⟨14, _⟩ => ⟨S61440, .i32⟩
  | .hbm, ⟨15, _⟩ => ⟨S61440, .i32⟩
  | .hbm, ⟨16, _⟩ => ⟨S_, .i32⟩
  | .hbm, ⟨17, _⟩ => ⟨S1200000, .i32⟩
  | .hbm, ⟨18, _⟩ => ⟨S1200000, .i1⟩
  | .hbm, ⟨19, _⟩ => ⟨S_, .i32⟩
  | .hbm, ⟨20, _⟩ => ⟨S1200000, .i32⟩
  | .hbm, ⟨21, _⟩ => ⟨S1200000, .i32⟩
  | .hbm, ⟨22, _⟩ => ⟨S1200000, .i32⟩
  | .hbm, ⟨23, _⟩ => ⟨S1200000x1, .i32⟩
  | .hbm, ⟨24, _⟩ => ⟨S1200000x128, .f32⟩
  | .hbm, ⟨25, _⟩ => ⟨S_, .f32⟩
  | .hbm, ⟨26, _⟩ => ⟨S80000x128, .f32⟩
  | .hbm, ⟨27, _⟩ => ⟨S1200000x1, .i32⟩
  | .hbm, ⟨28, _⟩ => ⟨S80000x128, .f32⟩
  | .hbm, ⟨29, _⟩ => ⟨S_, .f32⟩
  | .hbm, ⟨30, _⟩ => ⟨S1200000, .f32⟩
  | .hbm, ⟨31, _⟩ => ⟨S_, .f32⟩
  | .hbm, ⟨32, _⟩ => ⟨S80000, .f32⟩
  | .hbm, ⟨33, _⟩ => ⟨S1200000x1, .i32⟩
  | .hbm, ⟨34, _⟩ => ⟨S80000, .f32⟩
  | .hbm, ⟨35, _⟩ => ⟨S80000x128, .f32⟩
  | .hbm, ⟨36, _⟩ => ⟨S80000x1, .f32⟩
  | .hbm, ⟨37, _⟩ => ⟨S1x128, .f32⟩
  | .hbm, ⟨38, _⟩ => ⟨S80000x128, .f32⟩
  | .hbm, ⟨39, _⟩ => ⟨S_, .i32⟩
  | .hbm, ⟨40, _⟩ => ⟨S240000, .i32⟩
  | .hbm, ⟨41, _⟩ => ⟨S240000, .i1⟩
  | .hbm, ⟨42, _⟩ => ⟨S_, .i32⟩
  | .hbm, ⟨43, _⟩ => ⟨S240000, .i32⟩
  | .hbm, ⟨44, _⟩ => ⟨S240000, .i32⟩
  | .hbm, ⟨45, _⟩ => ⟨S240000, .i32⟩
  | .hbm, ⟨46, _⟩ => ⟨S240000x1, .i32⟩
  | .hbm, ⟨47, _⟩ => ⟨S240000x128, .f32⟩
  | .hbm, ⟨48, _⟩ => ⟨S_, .f32⟩
  | .hbm, ⟨49, _⟩ => ⟨S16000x128, .f32⟩
  | .hbm, ⟨50, _⟩ => ⟨S240000x1, .i32⟩
  | .hbm, ⟨51, _⟩ => ⟨S16000x128, .f32⟩
  | .hbm, ⟨52, _⟩ => ⟨S_, .f32⟩
  | .hbm, ⟨53, _⟩ => ⟨S240000, .f32⟩
  | .hbm, ⟨54, _⟩ => ⟨S_, .f32⟩
  | .hbm, ⟨55, _⟩ => ⟨S16000, .f32⟩
  | .hbm, ⟨56, _⟩ => ⟨S240000x1, .i32⟩
  | .hbm, ⟨57, _⟩ => ⟨S16000, .f32⟩
  | .hbm, ⟨58, _⟩ => ⟨S16000x128, .f32⟩
  | .hbm, ⟨59, _⟩ => ⟨S16000x1, .f32⟩
  | .hbm, ⟨60, _⟩ => ⟨S1x128, .f32⟩
  | .hbm, ⟨61, _⟩ => ⟨S16000x128, .f32⟩
  | .hbm, ⟨62, _⟩ => ⟨S_, .i32⟩
  | .hbm, ⟨63, _⟩ => ⟨S61440, .i32⟩
  | .hbm, ⟨64, _⟩ => ⟨S61440, .i1⟩
  | .hbm, ⟨65, _⟩ => ⟨S_, .i32⟩
  | .hbm, ⟨66, _⟩ => ⟨S61440, .i32⟩
  | .hbm, ⟨67, _⟩ => ⟨S61440, .i32⟩
  | .hbm, ⟨68, _⟩ => ⟨S61440, .i32⟩
  | .hbm, ⟨69, _⟩ => ⟨S61440x1, .i32⟩
  | .hbm, ⟨70, _⟩ => ⟨S61440x128, .f32⟩
  | .hbm, ⟨71, _⟩ => ⟨S_, .f32⟩
  | .hbm, ⟨72, _⟩ => ⟨S4096x128, .f32⟩
  | .hbm, ⟨73, _⟩ => ⟨S61440x1, .i32⟩
  | .hbm, ⟨74, _⟩ => ⟨S4096x128, .f32⟩
  | .hbm, ⟨75, _⟩ => ⟨S_, .f32⟩
  | .hbm, ⟨76, _⟩ => ⟨S61440, .f32⟩
  | .hbm, ⟨77, _⟩ => ⟨S_, .f32⟩
  | .hbm, ⟨78, _⟩ => ⟨S4096, .f32⟩
  | .hbm, ⟨79, _⟩ => ⟨S61440x1, .i32⟩
  | .hbm, ⟨80, _⟩ => ⟨S4096, .f32⟩
  | .hbm, ⟨81, _⟩ => ⟨S4096x128, .f32⟩
  | .hbm, ⟨82, _⟩ => ⟨S4096x1, .f32⟩
  | .hbm, ⟨83, _⟩ => ⟨S1x128, .f32⟩
  | .hbm, ⟨84, _⟩ => ⟨S4096x128, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S10000x128, .f32⟩
  | .local _ .vmem, ⟨10, _⟩ => ⟨S10000x128, .f32⟩
  | .local _ .vmem, ⟨11, _⟩ => ⟨S4000x128, .f32⟩
  | .local _ .vmem, ⟨12, _⟩ => ⟨S4000x128, .f32⟩
  | .local _ .vmem, ⟨13, _⟩ => ⟨S4000x1, .f32⟩
  | .local _ .vmem, ⟨14, _⟩ => ⟨S4000x1, .f32⟩
  | .local _ .vmem, ⟨15, _⟩ => ⟨S4000x128, .f32⟩
  | .local _ .vmem, ⟨16, _⟩ => ⟨S4000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S4000x128, .f32⟩
  | .local _ .vmem, ⟨21, _⟩ => ⟨S4000x128, .f32⟩
  | .local _ .vmem, ⟨22, _⟩ => ⟨S4096x128, .f32⟩
  | .local _ .vmem, ⟨23, _⟩ => ⟨S4096x1, .f32⟩
  | .local _ .vmem, ⟨24, _⟩ => ⟨S4096x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S4096x128, .f32⟩
  | _, _ => ⟨S400000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_cst_7 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_8 : Ref sig .tc := ⟨.hbm, 62, rfl⟩
abbrev main_v36 : Ref sig .tc := ⟨.hbm, 63, rfl⟩
abbrev main_v37 : Ref sig .tc := ⟨.hbm, 64, rfl⟩
abbrev main_c_9 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_10 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_11 : Ref sig .tc := ⟨.hbm, 75, rfl⟩
abbrev main_v46 : Ref sig .tc := ⟨.hbm, 76, rfl⟩
abbrev main_cst_12 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S4096x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S4096x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S4096x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S4096x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S80000x128 : S_.BroadcastsInDim S80000x128 (![] : Fin 0 → Fin S80000x128.rank)
  bcast_S_S80000 : S_.BroadcastsInDim S80000 (![] : Fin 0 → Fin S80000.rank)
  slices_S400000x128_S80000x128_0_0 : S400000x128.Slices ![0, 0] S80000x128
  shapeCasts_S80000_S80000x1 : S80000.ShapeCasts S80000x1
  shapeCasts_S128_S1x128 : S128.ShapeCasts S1x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S240000 : S_.BroadcastsInDim S240000 (![] : Fin 0 → Fin S240000.rank)
  bcast_S240000_S240000x1_0 : S240000.BroadcastsInDim S240000x1 (![0] : Fin 1 → Fin S240000x1.rank)
  bcast_S_S16000x128 : S_.BroadcastsInDim S16000x128 (![] : Fin 0 → Fin S16000x128.rank)
  bcast_S_S16000 : S_.BroadcastsInDim S16000 (![] : Fin 0 → Fin S16000.rank)
  slices_S80000x128_S16000x128_0_0 : S80000x128.Slices ![0, 0] S16000x128
  shapeCasts_S16000_S16000x1 : S16000.ShapeCasts S16000x1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S4000x1_S4000x128 : S4000x1.Broadcasts S4000x128
  broadcasts_S1x128_S4000x128 : S1x128.Broadcasts S4000x128
  bcast_S_S61440 : S_.BroadcastsInDim S61440 (![] : Fin 0 → Fin S61440.rank)
  bcast_S61440_S61440x1_0 : S61440.BroadcastsInDim S61440x1 (![0] : Fin 1 → Fin S61440x1.rank)
  bcast_S_S4096x128 : S_.BroadcastsInDim S4096x128 (![] : Fin 0 → Fin S4096x128.rank)
  bcast_S_S4096 : S_.BroadcastsInDim S4096 (![] : Fin 0 → Fin S4096.rank)
  slices_S16000x128_S4096x128_0_0 : S16000x128.Slices ![0, 0] S4096x128
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  broadcasts_S4096x1_S4096x128 : S4096x1.Broadcasts S4096x128
  broadcasts_S1x128_S4096x128 : S1x128.Broadcasts S4096x128
  gather_S400000x128_S1200000x1_S1200000x128_1_0_n_n_0_1_1128_wf : GatherDims.WF S400000x128 S1200000x1 S1200000x128 [1] [0] [] [0] [] 1 ![1, 128]
  scatter_S80000x128_S1200000x1_S1200000x128_1_0_0_1_wf : ScatterDims.WF S80000x128 S1200000x1 S1200000x128 [1] [0] [0] 1
  scatter_S80000_S1200000x1_S1200000_n_0_0_1_wf : ScatterDims.WF S80000 S1200000x1 S1200000 [] [0] [0] 1
  dot_S10000x128_S128x128_S10000x128_1_0_0_1_n_n_wf : DotDims.WF S10000x128 S128x128 S10000x128 [1] [0] [0] [1] [] []
  gather_S80000x128_S240000x1_S240000x128_1_0_n_n_0_1_1128_wf : GatherDims.WF S80000x128 S240000x1 S240000x128 [1] [0] [] [0] [] 1 ![1, 128]
  scatter_S16000x128_S240000x1_S240000x128_1_0_0_1_wf : ScatterDims.WF S16000x128 S240000x1 S240000x128 [1] [0] [0] 1
  scatter_S16000_S240000x1_S240000_n_0_0_1_wf : ScatterDims.WF S16000 S240000x1 S240000 [] [0] [0] 1
  dot_S4000x128_S128x128_S4000x128_1_0_0_1_n_n_wf : DotDims.WF S4000x128 S128x128 S4000x128 [1] [0] [0] [1] [] []
  gather_S16000x128_S61440x1_S61440x128_1_0_n_n_0_1_1128_wf : GatherDims.WF S16000x128 S61440x1 S61440x128 [1] [0] [] [0] [] 1 ![1, 128]
  scatter_S4096x128_S61440x1_S61440x128_1_0_0_1_wf : ScatterDims.WF S4096x128 S61440x1 S61440x128 [1] [0] [0] 1
  scatter_S4096_S61440x1_S61440_n_0_0_1_wf : ScatterDims.WF S4096 S61440x1 S61440 [] [0] [0] 1
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S80000x128.size a
  hwx0_0 : ∀ i : grid0.Coords, EltTy.bits .f32 = 32 ∨ (Rect.block (s := S80000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S80000x1.size a
  hwx0_1 : ∀ i : grid0.Coords, EltTy.bits .f32 = 32 ∨ (Rect.block (s := S80000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S80000x128.size a
  hwx0_2 : ∀ i : grid0.Coords, EltTy.bits .f32 = 32 ∨ (Rect.block (s := S80000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S80000x128.size a
  hwx0_6 : ∀ i : grid0.Coords, EltTy.bits .f32 = 32 ∨ (Rect.block (s := S80000x128) S10000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S16000x128.size a
  hwx1_0 : ∀ i : grid1.Coords, EltTy.bits .f32 = 32 ∨ (Rect.block (s := S16000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S16000x1.size a
  hwx1_1 : ∀ i : grid1.Coords, EltTy.bits .f32 = 32 ∨ (Rect.block (s := S16000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S16000x128.size a
  hwx1_2 : ∀ i : grid1.Coords, EltTy.bits .f32 = 32 ∨ (Rect.block (s := S16000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S16000x128.size a
  hwx1_6 : ∀ i : grid1.Coords, EltTy.bits .f32 = 32 ∨ (Rect.block (s := S16000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S4096x128.size a
  hwx2_0 : ∀ i : grid2.Coords, EltTy.bits .f32 = 32 ∨ (Rect.block (s := S4096x128) S4096x128.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S4096x1.size a ≤ S4096x1.size a
  hwx2_1 : ∀ i : grid2.Coords, EltTy.bits .f32 = 32 ∨ (Rect.block (s := S4096x1) S4096x1.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S4096x128.size a ≤ S4096x128.size a
  hwx2_2 : ∀ i : grid2.Coords, EltTy.bits .f32 = 32 ∨ (Rect.block (s := S4096x128) S4096x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 1
  hreads2_6 : ∀ i i' : grid2.Coords, (∀ a, reads2_6 a = true → i a = i' a) → cc2_transform_6 i = cc2_transform_6 i'
  hinb2_6 : ∀ (i : grid2.Coords) a, (cc2_transform_6 i a + 1) * S4096x128.size a ≤ S4096x128.size a
  hwx2_6 : ∀ i : grid2.Coords, EltTy.bits .f32 = 32 ∨ (Rect.block (s := S4096x128) S4096x128.size (cc2_transform_6 i) (hinb2_6 i)).WholeWords (EltTy.packing .f32)

variable [Facts₀]

def gather_S400000x128_S1200000x1_S1200000x128_1_0_n_n_0_1_1128 : GatherDims S400000x128 S1200000x1 S1200000x128 where
  offsetDims := [1]
  collapsedSliceDims := [0]
  operandBatchingDims := []
  startIndicesBatchingDims := []
  startIndexMap := [0]
  indexVectorDim := 1
  sliceSizes := ![1, 128]
  wf := gather_S400000x128_S1200000x1_S1200000x128_1_0_n_n_0_1_1128_wf
def scatter_S80000x128_S1200000x1_S1200000x128_1_0_0_1 : ScatterDims S80000x128 S1200000x1 S1200000x128 where
  updateWindowDims := [1]
  insertedWindowDims := [0]
  scatterDimsToOperandDims := [0]
  indexVectorDim := 1
  wf := scatter_S80000x128_S1200000x1_S1200000x128_1_0_0_1_wf
def scatter_S80000_S1200000x1_S1200000_n_0_0_1 : ScatterDims S80000 S1200000x1 S1200000 where
  updateWindowDims := []
  insertedWindowDims := [0]
  scatterDimsToOperandDims := [0]
  indexVectorDim := 1
  wf := scatter_S80000_S1200000x1_S1200000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S80000x128_S240000x1_S240000x128_1_0_n_n_0_1_1128 : GatherDims S80000x128 S240000x1 S240000x128 where
  offsetDims := [1]
  collapsedSliceDims := [0]
  operandBatchingDims := []
  startIndicesBatchingDims := []
  startIndexMap := [0]
  indexVectorDim := 1
  sliceSizes := ![1, 128]
  wf := gather_S80000x128_S240000x1_S240000x128_1_0_n_n_0_1_1128_wf
def scatter_S16000x128_S240000x1_S240000x128_1_0_0_1 : ScatterDims S16000x128 S240000x1 S240000x128 where
  updateWindowDims := [1]
  insertedWindowDims := [0]
  scatterDimsToOperandDims := [0]
  indexVectorDim := 1
  wf := scatter_S16000x128_S240000x1_S240000x128_1_0_0_1_wf
def scatter_S16000_S240000x1_S240000_n_0_0_1 : ScatterDims S16000 S240000x1 S240000 where
  updateWindowDims := []
  insertedWindowDims := [0]
  scatterDimsToOperandDims := [0]
  indexVectorDim := 1
  wf := scatter_S16000_S240000x1_S240000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S16000x128_S61440x1_S61440x128_1_0_n_n_0_1_1128 : GatherDims S16000x128 S61440x1 S61440x128 where
  offsetDims := [1]
  collapsedSliceDims := [0]
  operandBatchingDims := []
  startIndicesBatchingDims := []
  startIndexMap := [0]
  indexVectorDim := 1
  sliceSizes := ![1, 128]
  wf := gather_S16000x128_S61440x1_S61440x128_1_0_n_n_0_1_1128_wf
def scatter_S4096x128_S61440x1_S61440x128_1_0_0_1 : ScatterDims S4096x128 S61440x1 S61440x128 where
  updateWindowDims := [1]
  insertedWindowDims := [0]
  scatterDimsToOperandDims := [0]
  indexVectorDim := 1
  wf := scatter_S4096x128_S61440x1_S61440x128_1_0_0_1_wf
def scatter_S4096_S61440x1_S61440_n_0_0_1 : ScatterDims S4096 S61440x1 S61440 where
  updateWindowDims := []
  insertedWindowDims := [0]
  scatterDimsToOperandDims := [0]
  indexVectorDim := 1
  wf := scatter_S4096_S61440x1_S61440_n_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v9) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v27) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45) S4096x128.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v51) S4096x1.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S4096x128.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v53) S4096x128.size cc2_transform_6 reads2_6 true false 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S400000x128 : Shape := ⟨2, ![400000, 128]⟩
abbrev S128x128 : Shape := ⟨2, ![128, 128]⟩
abbrev S128 : Shape := ⟨1, ![128]⟩
abbrev S1200000 : Shape := ⟨1, ![1200000]⟩
abbrev S240000 : Shape := ⟨1, ![240000]⟩
abbrev S61440 : Shape := ⟨1, ![61440]⟩
abbrev S_ : Shape := ⟨0, ![]⟩
abbrev S1200000x1 : Shape := ⟨2, ![1200000, 1]⟩
abbrev S1200000x128 : Shape := ⟨2, ![1200000, 128]⟩
abbrev S80000x128 : Shape := ⟨2, ![80000, 128]⟩
abbrev S80000 : Shape := ⟨1, ![80000]⟩
abbrev S80000x1 : Shape := ⟨2, ![80000, 1]⟩
abbrev S1x128 : Shape := ⟨2, ![1, 128]⟩
abbrev S240000x1 : Shape := ⟨2, ![240000, 1]⟩
abbrev S240000x128 : Shape := ⟨2, ![240000, 128]⟩
abbrev S16000x128 : Shape := ⟨2, ![16000, 128]⟩
abbrev S16000 : Shape := ⟨1, ![16000]⟩
abbrev S16000x1 : Shape := ⟨2, ![16000, 1]⟩
abbrev S61440x1 : Shape := ⟨2, ![61440, 1]⟩
abbrev S61440x128 : Shape := ⟨2, ![61440, 128]⟩
abbrev S4096x128 : Shape := ⟨2, ![4096, 128]⟩
abbrev S4096 : Shape := ⟨1, ![4096]⟩
abbrev S4096x1 : Shape := ⟨2, ![4096, 1]⟩

abbrev nBuf : Space → Nat
  | .hbm => 118
  | .vmem => 0
  | .smem => 0
  | _ => 0

abbrev bufTy : (tb : Table) → Fin (tcTables nBuf tb) → BufTy
  | .hbm, ⟨0, _⟩ => ⟨S400000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S1200000, .i32⟩
  | .hbm, ⟨11, _⟩ => ⟨S1200000, .i32⟩
  | .hbm, ⟨12, _⟩ => ⟨S240000, .i32⟩
  | .hbm, ⟨13, _⟩ => ⟨S240000, .i32⟩
  | .hbm, ⟨14, _⟩ => ⟨S61440, .i32⟩
  | .hbm, ⟨15, _⟩ => ⟨S61440, .i32⟩
  | .hbm, ⟨16, _⟩ => ⟨S_, .i32⟩
  | .hbm, ⟨17, _⟩ => ⟨S1200000, .i32⟩
  | .hbm, ⟨18, _⟩ => ⟨S1200000, .i1⟩
  | .hbm, ⟨19, _⟩ => ⟨S_, .i32⟩
  | .hbm, ⟨20, _⟩ => ⟨S1200000, .i32⟩
  | .hbm, ⟨21, _⟩ => ⟨S1200000, .i32⟩
  | .hbm, ⟨22, _⟩ => ⟨S1200000, .i32⟩
  | .hbm, ⟨23, _⟩ => ⟨S1200000x1, .i32⟩
  | .hbm, ⟨24, _⟩ => ⟨S1200000x128, .f32⟩
  | .hbm, ⟨25, _⟩ => ⟨S_, .f32⟩
  | .hbm, ⟨26, _⟩ => ⟨S80000x128, .f32⟩
  | .hbm, ⟨27, _⟩ => ⟨S1200000x1, .i32⟩
  | .hbm, ⟨28, _⟩ => ⟨S80000x128, .f32⟩
  | .hbm, ⟨29, _⟩ => ⟨S_, .f32⟩
  | .hbm, ⟨30, _⟩ => ⟨S1200000, .f32⟩
  | .hbm, ⟨31, _⟩ => ⟨S_, .f32⟩
  | .hbm, ⟨32, _⟩ => ⟨S80000, .f32⟩
  | .hbm, ⟨33, _⟩ => ⟨S1200000x1, .i32⟩
  | .hbm, ⟨34, _⟩ => ⟨S80000, .f32⟩
  | .hbm, ⟨35, _⟩ => ⟨S_, .f32⟩
  | .hbm, ⟨36, _⟩ => ⟨S80000, .f32⟩
  | .hbm, ⟨37, _⟩ => ⟨S80000, .f32⟩
  | .hbm, ⟨38, _⟩ => ⟨S80000x1, .f32⟩
  | .hbm, ⟨39, _⟩ => ⟨S80000x128, .f32⟩
  | .hbm, ⟨40, _⟩ => ⟨S80000x128, .f32⟩
  | .hbm, ⟨41, _⟩ => ⟨S80000x128, .f32⟩
  | .hbm, ⟨42, _⟩ => ⟨S1x128, .f32⟩
  | .hbm, ⟨43, _⟩ => ⟨S80000x128, .f32⟩
  | .hbm, ⟨44, _⟩ => ⟨S80000x128, .f32⟩
  | .hbm, ⟨45, _⟩ => ⟨S80000x128, .f32⟩
  | .hbm, ⟨46, _⟩ => ⟨S80000x128, .f32⟩
  | .hbm, ⟨47, _⟩ => ⟨S80000x128, .f32⟩
  | .hbm, ⟨48, _⟩ => ⟨S_, .f32⟩
  | .hbm, ⟨49, _⟩ => ⟨S80000x128, .f32⟩
  | .hbm, ⟨50, _⟩ => ⟨S80000x128, .f32⟩
  | .hbm, ⟨51, _⟩ => ⟨S_, .i32⟩
  | .hbm, ⟨52, _⟩ => ⟨S240000, .i32⟩
  | .hbm, ⟨53, _⟩ => ⟨S240000, .i1⟩
  | .hbm, ⟨54, _⟩ => ⟨S_, .i32⟩
  | .hbm, ⟨55, _⟩ => ⟨S240000, .i32⟩
  | .hbm, ⟨56, _⟩ => ⟨S240000, .i32⟩
  | .hbm, ⟨57, _⟩ => ⟨S240000, .i32⟩
  | .hbm, ⟨58, _⟩ => ⟨S240000x1, .i32⟩
  | .hbm, ⟨59, _⟩ => ⟨S240000x128, .f32⟩
  | .hbm, ⟨60, _⟩ => ⟨S_, .f32⟩
  | .hbm, ⟨61, _⟩ => ⟨S16000x128, .f32⟩
  | .hbm, ⟨62, _⟩ => ⟨S240000x1, .i32⟩
  | .hbm, ⟨63, _⟩ => ⟨S16000x128, .f32⟩
  | .hbm, ⟨64, _⟩ => ⟨S_, .f32⟩
  | .hbm, ⟨65, _⟩ => ⟨S240000, .f32⟩
  | .hbm, ⟨66, _⟩ => ⟨S_, .f32⟩
  | .hbm, ⟨67, _⟩ => ⟨S16000, .f32⟩
  | .hbm, ⟨68, _⟩ => ⟨S240000x1, .i32⟩
  | .hbm, ⟨69, _⟩ => ⟨S16000, .f32⟩
  | .hbm, ⟨70, _⟩ => ⟨S_, .f32⟩
  | .hbm, ⟨71, _⟩ => ⟨S16000, .f32⟩
  | .hbm, ⟨72, _⟩ => ⟨S16000, .f32⟩
  | .hbm, ⟨73, _⟩ => ⟨S16000x1, .f32⟩
  | .hbm, ⟨74, _⟩ => ⟨S16000x128, .f32⟩
  | .hbm, ⟨75, _⟩ => ⟨S16000x128, .f32⟩
  | .hbm, ⟨76, _⟩ => ⟨S16000x128, .f32⟩
  | .hbm, ⟨77, _⟩ => ⟨S1x128, .f32⟩
  | .hbm, ⟨78, _⟩ => ⟨S16000x128, .f32⟩
  | .hbm, ⟨79, _⟩ => ⟨S16000x128, .f32⟩
  | .hbm, ⟨80, _⟩ => ⟨S16000x128, .f32⟩
  | .hbm, ⟨81, _⟩ => ⟨S16000x128, .f32⟩
  | .hbm, ⟨82, _⟩ => ⟨S16000x128, .f32⟩
  | .hbm, ⟨83, _⟩ => ⟨S_, .f32⟩
  | .hbm, ⟨84, _⟩ => ⟨S16000x128, .f32⟩
  | .hbm, ⟨85, _⟩ => ⟨S16000x128, .f32⟩
  | .hbm, ⟨86, _⟩ => ⟨S_, .i32⟩
  | .hbm, ⟨87, _⟩ => ⟨S61440, .i32⟩
  | .hbm, ⟨88, _⟩ => ⟨S61440, .i1⟩
  | .hbm, ⟨89, _⟩ => ⟨S_, .i32⟩
  | .hbm, ⟨90, _⟩ => ⟨S61440, .i32⟩
  | .hbm, ⟨91, _⟩ => ⟨S61440, .i32⟩
  | .hbm, ⟨92, _⟩ => ⟨S61440, .i32⟩
  | .hbm, ⟨93, _⟩ => ⟨S61440x1, .i32⟩
  | .hbm, ⟨94, _⟩ => ⟨S61440x128, .f32⟩
  | .hbm, ⟨95, _⟩ => ⟨S_, .f32⟩
  | .hbm, ⟨96, _⟩ => ⟨S4096x128, .f32⟩
  | .hbm, ⟨97, _⟩ => ⟨S61440x1, .i32⟩
  | .hbm, ⟨98, _⟩ => ⟨S4096x128, .f32⟩
  | .hbm, ⟨99, _⟩ => ⟨S_, .f32⟩
  | .hbm, ⟨100, _⟩ => ⟨S61440, .f32⟩
  | .hbm, ⟨101, _⟩ => ⟨S_, .f32⟩
  | .hbm, ⟨102, _⟩ => ⟨S4096, .f32⟩
  | .hbm, ⟨103, _⟩ => ⟨S61440x1, .i32⟩
  | .hbm, ⟨104, _⟩ => ⟨S4096, .f32⟩
  | .hbm, ⟨105, _⟩ => ⟨S_, .f32⟩
  | .hbm, ⟨106, _⟩ => ⟨S4096, .f32⟩
  | .hbm, ⟨107, _⟩ => ⟨S4096, .f32⟩
  | .hbm, ⟨108, _⟩ => ⟨S4096x1, .f32⟩
  | .hbm, ⟨109, _⟩ => ⟨S4096x128, .f32⟩
  | .hbm, ⟨110, _⟩ => ⟨S4096x128, .f32⟩
  | .hbm, ⟨111, _⟩ => ⟨S4096x128, .f32⟩
  | .hbm, ⟨112, _⟩ => ⟨S1x128, .f32⟩
  | .hbm, ⟨113, _⟩ => ⟨S4096x128, .f32⟩
  | .hbm, ⟨114, _⟩ => ⟨S4096x128, .f32⟩
  | .hbm, ⟨115, _⟩ => ⟨S4096x128, .f32⟩
  | .hbm, ⟨116, _⟩ => ⟨S4096x128, .f32⟩
  | .hbm, ⟨117, _⟩ => ⟨S4096x128, .f32⟩
  | _, _ => ⟨S400000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call0_cst : Ref sig .tc := ⟨.hbm, 48, rfl⟩
abbrev main_call0_v0 : Ref sig .tc := ⟨.hbm, 49, rfl⟩
abbrev main_v26 : Ref sig .tc := ⟨.hbm, 50, rfl⟩
abbrev main_c_4 : Ref sig .tc := ⟨.hbm, 51, rfl⟩
abbrev main_v27 : Ref sig .tc := ⟨.hbm, 52, rfl⟩
abbrev main_v28 : Ref sig .tc := ⟨.hbm, 53, rfl⟩
abbrev main_c_5 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call1_cst : Ref sig .tc := ⟨.hbm, 83, rfl⟩
abbrev main_call1_v0 : Ref sig .tc := ⟨.hbm, 84, rfl⟩
abbrev main_v53 : Ref sig .tc := ⟨.hbm, 85, rfl⟩
abbrev main_c_10 : Ref sig .tc := ⟨.hbm, 86, rfl⟩
abbrev main_v54 : Ref sig .tc := ⟨.hbm, 87, rfl⟩
abbrev main_v55 : Ref sig .tc := ⟨.hbm, 88, rfl⟩
abbrev main_c_11 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_12 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_13 : Ref sig .tc := ⟨.hbm, 99, rfl⟩
abbrev main_v64 : Ref sig .tc := ⟨.hbm, 100, rfl⟩
abbrev main_cst_14 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_15 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S80000x128 : S_.BroadcastsInDim S80000x128 (![] : Fin 0 → Fin S80000x128.rank)
  bcast_S_S80000 : S_.BroadcastsInDim S80000 (![] : Fin 0 → Fin S80000.rank)
  bcast_S80000_S80000x1_0 : S80000.BroadcastsInDim S80000x1 (![0] : Fin 1 → Fin S80000x1.rank)
  bcast_S80000x1_S80000x128_0_1 : S80000x1.BroadcastsInDim S80000x128 (![0, 1] : Fin 2 → Fin S80000x128.rank)
  bcast_S128_S1x128_1 : S128.BroadcastsInDim S1x128 (![1] : Fin 1 → Fin S1x128.rank)
  bcast_S1x128_S80000x128_0_1 : S1x128.BroadcastsInDim S80000x128 (![0, 1] : Fin 2 → Fin S80000x128.rank)
  slices_S400000x128_S80000x128_0_0 : S400000x128.Slices ![0, 0] S80000x128
  bcast_S_S240000 : S_.BroadcastsInDim S240000 (![] : Fin 0 → Fin S240000.rank)
  bcast_S240000_S240000x1_0 : S240000.BroadcastsInDim S240000x1 (![0] : Fin 1 → Fin S240000x1.rank)
  bcast_S_S16000x128 : S_.BroadcastsInDim S16000x128 (![] : Fin 0 → Fin S16000x128.rank)
  bcast_S_S16000 : S_.BroadcastsInDim S16000 (![] : Fin 0 → Fin S16000.rank)
  bcast_S16000_S16000x1_0 : S16000.BroadcastsInDim S16000x1 (![0] : Fin 1 → Fin S16000x1.rank)
  bcast_S16000x1_S16000x128_0_1 : S16000x1.BroadcastsInDim S16000x128 (![0, 1] : Fin 2 → Fin S16000x128.rank)
  bcast_S1x128_S16000x128_0_1 : S1x128.BroadcastsInDim S16000x128 (![0, 1] : Fin 2 → Fin S16000x128.rank)
  slices_S80000x128_S16000x128_0_0 : S80000x128.Slices ![0, 0] S16000x128
  bcast_S_S61440 : S_.BroadcastsInDim S61440 (![] : Fin 0 → Fin S61440.rank)
  bcast_S61440_S61440x1_0 : S61440.BroadcastsInDim S61440x1 (![0] : Fin 1 → Fin S61440x1.rank)
  bcast_S_S4096x128 : S_.BroadcastsInDim S4096x128 (![] : Fin 0 → Fin S4096x128.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  bcast_S1x128_S4096x128_0_1 : S1x128.BroadcastsInDim S4096x128 (![0, 1] : Fin 2 → Fin S4096x128.rank)
  slices_S16000x128_S4096x128_0_0 : S16000x128.Slices ![0, 0] S4096x128
  gather_S400000x128_S1200000x1_S1200000x128_1_0_n_n_0_1_1128_wf : GatherDims.WF S400000x128 S1200000x1 S1200000x128 [1] [0] [] [0] [] 1 ![1, 128]
  scatter_S80000x128_S1200000x1_S1200000x128_1_0_0_1_wf : ScatterDims.WF S80000x128 S1200000x1 S1200000x128 [1] [0] [0] 1
  scatter_S80000_S1200000x1_S1200000_n_0_0_1_wf : ScatterDims.WF S80000 S1200000x1 S1200000 [] [0] [0] 1
  dot_S80000x128_S128x128_S80000x128_1_0_0_1_n_n_wf : DotDims.WF S80000x128 S128x128 S80000x128 [1] [0] [0] [1] [] []
  gather_S80000x128_S240000x1_S240000x128_1_0_n_n_0_1_1128_wf : GatherDims.WF S80000x128 S240000x1 S240000x128 [1] [0] [] [0] [] 1 ![1, 128]
  scatter_S16000x128_S240000x1_S240000x128_1_0_0_1_wf : ScatterDims.WF S16000x128 S240000x1 S240000x128 [1] [0] [0] 1
  scatter_S16000_S240000x1_S240000_n_0_0_1_wf : ScatterDims.WF S16000 S240000x1 S240000 [] [0] [0] 1
  dot_S16000x128_S128x128_S16000x128_1_0_0_1_n_n_wf : DotDims.WF S16000x128 S128x128 S16000x128 [1] [0] [0] [1] [] []
  gather_S16000x128_S61440x1_S61440x128_1_0_n_n_0_1_1128_wf : GatherDims.WF S16000x128 S61440x1 S61440x128 [1] [0] [] [0] [] 1 ![1, 128]
  scatter_S4096x128_S61440x1_S61440x128_1_0_0_1_wf : ScatterDims.WF S4096x128 S61440x1 S61440x128 [1] [0] [0] 1
  scatter_S4096_S61440x1_S61440_n_0_0_1_wf : ScatterDims.WF S4096 S61440x1 S61440 [] [0] [0] 1
  dot_S4096x128_S128x128_S4096x128_1_0_0_1_n_n_wf : DotDims.WF S4096x128 S128x128 S4096x128 [1] [0] [0] [1] [] []

variable [Facts₀]

def gather_S400000x128_S1200000x1_S1200000x128_1_0_n_n_0_1_1128 : GatherDims S400000x128 S1200000x1 S1200000x128 where
  offsetDims := [1]
  collapsedSliceDims := [0]
  operandBatchingDims := []
  startIndicesBatchingDims := []
  startIndexMap := [0]
  indexVectorDim := 1
  sliceSizes := ![1, 128]
  wf := gather_S400000x128_S1200000x1_S1200000x128_1_0_n_n_0_1_1128_wf
def scatter_S80000x128_S1200000x1_S1200000x128_1_0_0_1 : ScatterDims S80000x128 S1200000x1 S1200000x128 where
  updateWindowDims := [1]
  insertedWindowDims := [0]
  scatterDimsToOperandDims := [0]
  indexVectorDim := 1
  wf := scatter_S80000x128_S1200000x1_S1200000x128_1_0_0_1_wf
def scatter_S80000_S1200000x1_S1200000_n_0_0_1 : ScatterDims S80000 S1200000x1 S1200000 where
  updateWindowDims := []
  insertedWindowDims := [0]
  scatterDimsToOperandDims := [0]
  indexVectorDim := 1
  wf := scatter_S80000_S1200000x1_S1200000_n_0_0_1_wf
def dot_S80000x128_S128x128_S80000x128_1_0_0_1_n_n : DotDims S80000x128 S128x128 S80000x128 where
  lhsContracting := [1]
  rhsContracting := [0]
  lhsNonContracting := [0]
  rhsNonContracting := [1]
  lhsBatch := []
  rhsBatch := []
  wf := dot_S80000x128_S128x128_S80000x128_1_0_0_1_n_n_wf
def gather_S80000x128_S240000x1_S240000x128_1_0_n_n_0_1_1128 : GatherDims S80000x128 S240000x1 S240000x128 where
  offsetDims := [1]
  collapsedSliceDims := [0]
  operandBatchingDims := []
  startIndicesBatchingDims := []
  startIndexMap := [0]
  indexVectorDim := 1
  sliceSizes := ![1, 128]
  wf := gather_S80000x128_S240000x1_S240000x128_1_0_n_n_0_1_1128_wf
def scatter_S16000x128_S240000x1_S240000x128_1_0_0_1 : ScatterDims S16000x128 S240000x1 S240000x128 where
  updateWindowDims := [1]
  insertedWindowDims := [0]
  scatterDimsToOperandDims := [0]
  indexVectorDim := 1
  wf := scatter_S16000x128_S240000x1_S240000x128_1_0_0_1_wf
def scatter_S16000_S240000x1_S240000_n_0_0_1 : ScatterDims S16000 S240000x1 S240000 where
  updateWindowDims := []
  insertedWindowDims := [0]
  scatterDimsToOperandDims := [0]
  indexVectorDim := 1
  wf := scatter_S16000_S240000x1_S240000_n_0_0_1_wf
def dot_S16000x128_S128x128_S16000x128_1_0_0_1_n_n : DotDims S16000x128 S128x128 S16000x128 where
  lhsContracting := [1]
  rhsContracting := [0]
  lhsNonContracting := [0]
  rhsNonContracting := [1]
  lhsBatch := []
  rhsBatch := []
  wf := dot_S16000x128_S128x128_S16000x128_1_0_0_1_n_n_wf
def gather_S16000x128_S61440x1_S61440x128_1_0_n_n_0_1_1128 : GatherDims S16000x128 S61440x1 S61440x128 where
  offsetDims := [1]
  collapsedSliceDims := [0]
  operandBatchingDims := []
  startIndicesBatchingDims := []
  startIndexMap := [0]
  indexVectorDim := 1
  sliceSizes := ![1, 128]
  wf := gather_S16000x128_S61440x1_S61440x128_1_0_n_n_0_1_1128_wf
def scatter_S4096x128_S61440x1_S61440x128_1_0_0_1 : ScatterDims S4096x128 S61440x1 S61440x128 where
  updateWindowDims := [1]
  insertedWindowDims := [0]
  scatterDimsToOperandDims := [0]
  indexVectorDim := 1
  wf := scatter_S4096x128_S61440x1_S61440x128_1_0_0_1_wf
def scatter_S4096_S61440x1_S61440_n_0_0_1 : ScatterDims S4096 S61440x1 S61440 where
  updateWindowDims := []
  insertedWindowDims := [0]
  scatterDimsToOperandDims := [0]
  indexVectorDim := 1
  wf := scatter_S4096_S61440x1_S61440_n_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

class Facts : Prop extends Facts₀ where

variable [Facts]
-- ==== Proof.KernelRun.lean ====
/-
  The kernel program's run, with its three results kept.

  The program is three launches of the layer kernel among stretches of host operations. Its buffers' contents are
  followed from the launch through the six segments as a fold: a stretch of host operations applies its operations
  to the contents it finds; a launch replaces its output array by what its grid points wrote back and leaves every
  other buffer alone. Every weakly fair execution terminates, nothing faults, and each buffer that outlives the
  program ends at the fold's last stage. Stated here for the three result buffers and the sixteen arguments (which
  no segment writes, so they end as launched).
-/
import proofs.«170427_j56160992363059_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; each result buffer then holds the last
    stage of the fold at that buffer, and each argument what it held at the launch. -/
theorem run : θ_run defs (onTc (τ := τ) (main (F := F))) ⟨m, fun _ => 0, ρ⟩ (fun r => ∀ c : Dev nD,
      r.2.mem ((c.tc : Thread nD τ).loc main_v17) = W6 m ρ c (Proc.devRef .tc main_v17)
      ∧ r.2.mem ((c.tc : Thread nD τ).loc main_v35) = W6 m ρ c (Proc.devRef .tc main_v35)
      ∧ r.2.mem ((c.tc : Thread nD τ).loc main_v53) = W6 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v17 (by decide)),
       h c _ (mem_uc main_v35 (by decide)),
       h c _ (mem_uc main_v53 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c)⟩)

end Cert.KernelIdeal.Fold

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«170427_j56160992363059_1_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.LibRowLayers.lean ====
/-
  The layers of a small perceptron applied to a block of `R` rows at once, read at one row `p`.

  Each lemma takes what the layer's input holds in row `p` (`ha : ∀ k, a (p, k) = row k`) and says what the
  layer's output holds at `(p, j)`, as a function of `row` alone — so a stack of layers is read by stacking the
  lemmas, one row at a time, whatever the number of rows in the block:

  * `product_apply` — the matrix unit's product with a `[K, N]` weight block into a zero accumulator:
    `∑ k, row k · w (k, j)`;
  * `bias_apply` — a `[1, N]` row repeated down the rows: its entry in column `j`;
  * `dense_apply`, `denseWith_apply` — product plus bias, and product plus an outer product `u (p) · wu (j)` of a
    one-column array with a one-row array plus bias (a layer whose last input coordinate is kept apart);
  * `unit_apply` — the rows divided by their Euclidean lengths (sum of squares along the row, kept as a column,
    square root, maximum with a floor, column repeated along the row, quotient):
    `row j / max (√(∑ k, row k²)) floor`.

  Only the definitions of the operations on the extended reals are used; nothing needs the entries to be finite.
-/
import Idealize.ShloMosaic.PureOps.Ideal.Laws
import Idealize.ShloMosaic.Lib.ValueIdx
import Idealize.ShloMosaic.Lib.ValueLayout
import Idealize.ShloMosaic.Lib.Pipeline.Value
import proofs.«170427_j56160992363059_1_alg».proof.Proof.LibRowsTimes
import proofs.«170427_j56160992363059_1_alg».proof.Proof.LibRowsCols
import proofs.«170427_j56160992363059_1_alg».proof.Proof.LibColumnLayout

noncomputable section

namespace Cert.RowLayers

open Idealize.ShloMosaic Idealize.ShloMosaic.ValueIdx Cert.Dense

variable {R K N : Nat}

/-- A `[1, N]` row (cast to its own shape) repeated down `R` rows reads, at `(p, j)`, the row at `j`. -/
theorem bias_apply {α : Type} (b : (⟨2, ![1, N]⟩ : Shape).Idx → α) (h₁ : (⟨2, ![1, N]⟩ : Shape).ShapeCasts ⟨2, ![1, N]⟩)
    (h₂ : (⟨2, ![1, N]⟩ : Shape).Broadcasts ⟨2, ![R, N]⟩) (p : Fin R) (j : Fin N) :
    broadcastTo ⟨2, ![R, N]⟩ (shapeCast ⟨2, ![1, N]⟩ b h₁) h₂ (ix2 p j) = b (ix2 (0 : Fin 1) j) := by
  rw [shapeCast_self]; exact broadcastTo_1b_ab_apply b h₂ p j

/-- The matrix unit's product of a block whose row `p` is `row` with a weight block, into the zero accumulator,
    at `(p, j)`: `∑ k, row k · w (k, j)`. -/
theorem product_apply (d : DotDims ⟨2, ![R, K]⟩ ⟨2, ![K, N]⟩ ⟨2, ![R, N]⟩) (hd : RowsCols d)
    (prec : Option ContractPrecision) {φ₁ φ₂ : FTy}
    (a : FVec Ideal ⟨2, ![R, K]⟩ φ₁) (w : FVec Ideal ⟨2, ![K, N]⟩ φ₂)
    (hc : (⟨2, ![K, N]⟩ : Shape).ShapeCasts ⟨2, ![K, N]⟩) (p : Fin R) (j : Fin N)
    (row : Fin K → EReal) (ha : ∀ k, a (ix2 p k) = row k) :
    matmul d prec a (shapeCast ⟨2, ![K, N]⟩ w hc) (constant (F := Ideal) ⟨2, ![R, N]⟩ .f32 0x00000000#32) (ix2 p j)
      = ∑ k : Fin K, row k * w (ix2 k j) := by
  rw [shapeCast_self]
  refine (matmul_zero_apply hd prec a w (ix2 p j)).trans ?_
  exact Finset.sum_congr rfl fun k _ => congrArg (· * w (ix2 k j)) (ha k)

/-- Product plus bias at `(p, j)`. -/
theorem dense_apply (d : DotDims ⟨2, ![R, K]⟩ ⟨2, ![K, N]⟩ ⟨2, ![R, N]⟩) (hd : RowsCols d)
    (prec : Option ContractPrecision) {φ₁ φ₂ : FTy}
    (a : FVec Ideal ⟨2, ![R, K]⟩ φ₁) (w : FVec Ideal ⟨2, ![K, N]⟩ φ₂)
    (hc : (⟨2, ![K, N]⟩ : Shape).ShapeCasts ⟨2, ![K, N]⟩)
    (b : FVec Ideal ⟨2, ![1, N]⟩ .f32) (hb₁ : (⟨2, ![1, N]⟩ : Shape).ShapeCasts ⟨2, ![1, N]⟩)
    (hb₂ : (⟨2, ![1, N]⟩ : Shape).Broadcasts ⟨2, ![R, N]⟩) (p : Fin R) (j : Fin N)
    (row : Fin K → EReal) (ha : ∀ k, a (ix2 p k) = row k) :
    addf (matmul d prec a (shapeCast ⟨2, ![K, N]⟩ w hc) (constant (F := Ideal) ⟨2, ![R, N]⟩ .f32 0x00000000#32))
        (broadcastTo ⟨2, ![R, N]⟩ (shapeCast ⟨2, ![1, N]⟩ b hb₁) hb₂) (ix2 p j)
      = (∑ k : Fin K, row k * w (ix2 k j)) + b (ix2 (0 : Fin 1) j) :=
  (addf_apply _ _ _).trans (congrArg₂ (· + ·) (product_apply d hd prec a w hc p j row ha) (bias_apply b hb₁ hb₂ p j))

/-- Product, plus the outer product of a one-column array `u` with a one-row array `wu`, plus bias, at `(p, j)`. -/
theorem denseWith_apply (d : DotDims ⟨2, ![R, K]⟩ ⟨2, ![K, N]⟩ ⟨2, ![R, N]⟩) (hd : RowsCols d)
    (prec : Option ContractPrecision) {φ₁ φ₂ : FTy}
    (a : FVec Ideal ⟨2, ![R, K]⟩ φ₁) (w : FVec Ideal ⟨2, ![K, N]⟩ φ₂)
    (hc : (⟨2, ![K, N]⟩ : Shape).ShapeCasts ⟨2, ![K, N]⟩)
    (u : FVec Ideal ⟨2, ![R, 1]⟩ .f32) (hu : (⟨2, ![R, 1]⟩ : Shape).Broadcasts ⟨2, ![R, N]⟩)
    (wu : FVec Ideal ⟨2, ![1, N]⟩ .f32) (hw₁ : (⟨2, ![1, N]⟩ : Shape).ShapeCasts ⟨2, ![1, N]⟩)
    (hw₂ : (⟨2, ![1, N]⟩ : Shape).Broadcasts ⟨2, ![R, N]⟩)
    (b : FVec Ideal ⟨2, ![1, N]⟩ .f32) (hb₁ : (⟨2, ![1, N]⟩ : Shape).ShapeCasts ⟨2, ![1, N]⟩)
    (hb₂ : (⟨2, ![1, N]⟩ : Shape).Broadcasts ⟨2, ![R, N]⟩) (p : Fin R) (j : Fin N)
    (row : Fin K → EReal) (ha : ∀ k, a (ix2 p k) = row k) :
    addf (addf (matmul d prec a (shapeCast ⟨2, ![K, N]⟩ w hc) (constant (F := Ideal) ⟨2, ![R, N]⟩ .f32 0x00000000#32))
          (mulf (broadcastTo ⟨2, ![R, N]⟩ u hu) (broadcastTo ⟨2, ![R, N]⟩ (shapeCast ⟨2, ![1, N]⟩ wu hw₁) hw₂)))
        (broadcastTo ⟨2, ![R, N]⟩ (shapeCast ⟨2, ![1, N]⟩ b hb₁) hb₂) (ix2 p j)
      = (∑ k : Fin K, row k * w (ix2 k j)) + u (ix2 p (0 : Fin 1)) * wu (ix2 (0 : Fin 1) j) + b (ix2 (0 : Fin 1) j) :=
  (addf_apply _ _ _).trans (congrArg₂ (· + ·)
    ((addf_apply _ _ _).trans (congrArg₂ (· + ·) (product_apply d hd prec a w hc p j row ha)
      ((mulf_apply _ _ _).trans (congrArg₂ (· * ·) (ColumnLayout.broadcastTo_a1_ab_apply u hu p j) (bias_apply wu hw₁ hw₂ p j)))))
    (bias_apply b hb₁ hb₂ p j))

/-- The index a sum along the row inserts: `(p, k)`. -/
theorem lift_row (hred : (⟨2, ![R, N]⟩ : Shape).Reduces [1] ⟨1, ![R]⟩) (p : Fin R) (k : Fin N) :
    hred.lift (ix1 p) k = ix2 p k := by
  funext x; apply Fin.ext
  match x with
  | ⟨0, _⟩ => rfl
  | ⟨1, _⟩ => rfl

/-- The rows divided by their Euclidean lengths kept above a floor, at `(p, j)`. -/
theorem unit_apply (a : FVec Ideal ⟨2, ![R, N]⟩ .f32) (fl : BitVec 32)
    (hred : (⟨2, ![R, N]⟩ : Shape).Reduces [1] ⟨1, ![R]⟩) (hφ : FKind.Formats .f32)
    (hacc : (0x00000000#32 : BitVec 32) = FKind.add.neutral .f32 hφ)
    (hc : (⟨1, ![R]⟩ : Shape).ShapeCasts ⟨2, ![R, 1]⟩) (hb : (⟨2, ![R, 1]⟩ : Shape).Broadcasts ⟨2, ![R, N]⟩)
    (p : Fin R) (j : Fin N) (row : Fin N → EReal) (ha : ∀ k, a (ix2 p k) = row k) :
    divf a (broadcastTo ⟨2, ![R, N]⟩
        (maximumf (sqrt (shapeCast ⟨2, ![R, 1]⟩ (multiReduction .add [1] ⟨1, ![R]⟩ (mulf a a) 0x00000000#32 hred hφ hacc) hc))
          (broadcast ⟨2, ![R, 1]⟩ (Scalar.ofBits .f32 fl))) hb) (ix2 p j)
      = Ideal.div (row j) (max (Ideal.sqrt (∑ k : Fin N, row k * row k)) (Ideal.ofBits .f32 fl)) := by
  refine (divf_apply _ _ _).trans ?_
  rw [ColumnLayout.broadcastTo_a1_ab_apply _ hb p j, ha j]
  refine congrArg (fun s => Ideal.div (row j) (max (Ideal.sqrt s) (Ideal.ofBits .f32 fl))) ?_
  refine (ColumnLayout.shapeCast_a_a1_apply _ hc p 0).trans ?_
  refine (Ideal.multiReduction_add_single (mulf a a) 0x00000000#32 hred hφ hacc (ix1 p)).trans ?_
  exact Finset.sum_congr rfl fun k _ => by
    rw [lift_row hred p k]
    exact (mulf_apply a a _).trans (by rw [ha k])

end Cert.RowLayers

end
-- ==== Proof.LibHostColumn.lean ====
/-
  A vector repeated into a matrix by the host's two broadcasts.

  The host repeats a vector along a new axis in two steps: it first gives the vector a unit axis (`broadcast_in_dim`
  of [n] into [n, 1] along dimension 0, or of [b] into [1, b] along dimension 1), then repeats the unit axis
  (`broadcast_in_dim` of [n, 1] or [1, b] into [n, b] along dimensions 0 and 1). Read at (p, k) the result is the
  vector at the coordinate it was laid along: the row `p` for a column, the column `k` for a row. A size-one axis
  of the operand is read at 0 whatever the result's coordinate, which is why the case of a vector of one entry needs
  no separate statement.
-/
import Idealize.ShloMosaic.Lib.Pipeline.Value
import Idealize.ShloMosaic.Lib.ValueIdx

namespace Idealize.ShloMosaic.HostColumn

open Idealize.ShloMosaic Idealize.ShloMosaic.ValueIdx

variable {α : Type}

/-- A vector of `n` entries kept as an [n, 1] column and that column repeated to [n, b], both by the host's
    `broadcast_in_dim`, reads the vector at the row. -/
theorem column_apply {n b : Nat} (x : (⟨1, ![n]⟩ : Shape).Idx → α)
    (b1 : (⟨1, ![n]⟩ : Shape).BroadcastsInDim ⟨2, ![n, 1]⟩ ![0])
    (b2 : (⟨2, ![n, 1]⟩ : Shape).BroadcastsInDim ⟨2, ![n, b]⟩ ![0, 1]) (p : Fin n) (k : Fin b) :
    broadcastInDim ⟨2, ![n, b]⟩ ![0, 1] b2 (broadcastInDim ⟨2, ![n, 1]⟩ ![0] b1 x) (ix2 p k) = x (ix1 p) := by
  refine (broadcastInDim_apply _ b2 _ (ix2 p k) (ix2 p (0 : Fin 1)) fun a => ?_).trans
    (broadcastInDim_apply _ b1 x (ix2 p (0 : Fin 1)) (ix1 p) fun a => ?_)
  · match a with
    | ⟨0, _⟩ =>
      show p.val = if n = 1 then 0 else p.val
      split
      · have := p.isLt; omega
      · rfl
    | ⟨1, _⟩ => rfl
  · match a with
    | ⟨0, _⟩ =>
      show p.val = if n = 1 then 0 else p.val
      split
      · have := p.isLt; omega
      · rfl

/-- A vector of `b` entries given a leading unit axis and repeated down `n` rows, both by the host's
    `broadcast_in_dim`, reads the vector at the column. -/
theorem row_apply {n b : Nat} (x : (⟨1, ![b]⟩ : Shape).Idx → α)
    (b3 : (⟨1, ![b]⟩ : Shape).BroadcastsInDim ⟨2, ![1, b]⟩ ![1])
    (b4 : (⟨2, ![1, b]⟩ : Shape).BroadcastsInDim ⟨2, ![n, b]⟩ ![0, 1]) (p : Fin n) (j : Fin b) :
    broadcastInDim ⟨2, ![n, b]⟩ ![0, 1] b4 (broadcastInDim ⟨2, ![1, b]⟩ ![1] b3 x) (ix2 p j) = x (ix1 j) := by
  refine (broadcastInDim_apply _ b4 _ (ix2 p j) (ix2 (0 : Fin 1) j) fun a => ?_).trans
    (broadcastInDim_apply _ b3 x (ix2 (0 : Fin 1) j) (ix1 j) fun a => ?_)
  · match a with
    | ⟨0, _⟩ => rfl
    | ⟨1, _⟩ =>
      show j.val = if b = 1 then 0 else j.val
      split
      · have := j.isLt; omega
      · rfl
  · match a with
    | ⟨0, _⟩ =>
      show j.val = if b = 1 then 0 else j.val
      split
      · have := j.isLt; omega
      · rfl

end Idealize.ShloMosaic.HostColumn
-- ==== Proof.Layer.lean ====
/-
  One layer of the network, as a function of its six arrays, entry by entry on the extended reals.

  A layer takes, per target node `r`: the sum `s (r, ·)` of the features of its in-neighbours, the number `cnt r` of
  those neighbours, and the node's own features `xt (r, ·)`; and two weight matrices and a bias. Its value before the
  rectifier, at (r, j), is

      (∑ k, (s (r, k) / max (cnt r) 1) · wl (k, j) + b j) + ∑ k, xt (r, k) · wr (k, j)

  — the mean over the neighbours (the count kept at least 1, so that a node with no in-neighbour divides by 1)
  through the first matrix, plus the bias, plus the node's own row through the second matrix, in exactly this
  grouping.

  Two programs compute it. One works on a block of `R` consecutive rows at a time, with the counts kept as an
  [R, 1] column and the bias as a [1, 128] row (`block_apply`); the other on all `n` rows at once, with the counts a
  vector repeated along the rows and the bias a vector repeated down them (`whole_apply`). Row `p` of a block depends
  only on row `p` of the block's inputs, which is why the blocks assemble into the whole.

  Both sides are the same sums of the same products and quotients in the same order: nothing here needs an entry
  to be finite.
-/
import Idealize.ShloMosaic.PureOps.Ideal.Laws
import Idealize.ShloMosaic.Lib.ValueIdx
import Idealize.ShloMosaic.Lib.ValueLayout
import Idealize.ShloMosaic.Lib.Pipeline.Value
import proofs.«170427_j56160992363059_1_alg».proof.Proof.LibRowsTimes
import proofs.«170427_j56160992363059_1_alg».proof.Proof.LibRowsCols
import proofs.«170427_j56160992363059_1_alg».proof.Proof.LibColumnLayout
import proofs.«170427_j56160992363059_1_alg».proof.Proof.LibRowLayers
import proofs.«170427_j56160992363059_1_alg».proof.Proof.LibHostColumn

noncomputable section

namespace Cert.Sage

open Idealize.ShloMosaic Idealize.ShloMosaic.ValueIdx Idealize.ShloMosaic.HostColumn Cert.Dense

/-- The layer before the rectifier: at (r, j), the neighbours' mean through `wl`, plus the bias, plus the node's own
    row through `wr`. The floor 1 under the count is spelt as its f32 word, the same word in both programs. -/
def pre {n : Nat} (s : (⟨2, ![n, 128]⟩ : Shape).Idx → EReal) (cnt : (⟨1, ![n]⟩ : Shape).Idx → EReal)
    (xt : (⟨2, ![n, 128]⟩ : Shape).Idx → EReal) (wl wr : (⟨2, ![128, 128]⟩ : Shape).Idx → EReal)
    (b : (⟨1, ![128]⟩ : Shape).Idx → EReal) : (⟨2, ![n, 128]⟩ : Shape).Idx → EReal :=
  fun i =>
    (∑ k : Fin 128, Ideal.div (s (ix2 (i 0 : Fin n) k)) (max (cnt (ix1 (i 0 : Fin n))) (Ideal.ofBits .f32 0x3F800000#32))
        * wl (ix2 k (i 1 : Fin 128))
      + b (ix1 (i 1 : Fin 128)))
    + ∑ k : Fin 128, xt (ix2 (i 0 : Fin n) k) * wr (ix2 k (i 1 : Fin 128))

/-- A block of `R` rows of the layer, the counts an [R, 1] column `v0` and the bias a [1, 128] row `v10`: at (p, j) the
    result is the formula above over row `p` of the block's inputs. -/
theorem block_apply {R : Nat} (d : DotDims ⟨2, ![R, 128]⟩ ⟨2, ![128, 128]⟩ ⟨2, ![R, 128]⟩) (hd : RowsCols d)
    (c1 : (⟨2, ![R, 1]⟩ : Shape).ShapeCasts ⟨2, ![R, 1]⟩) (c2 : (⟨2, ![R, 128]⟩ : Shape).ShapeCasts ⟨2, ![R, 128]⟩)
    (bc : (⟨2, ![R, 1]⟩ : Shape).Broadcasts ⟨2, ![R, 128]⟩)
    (c3 : (⟨2, ![1, 128]⟩ : Shape).ShapeCasts ⟨2, ![1, 128]⟩) (bb : (⟨2, ![1, 128]⟩ : Shape).Broadcasts ⟨2, ![R, 128]⟩)
    (v0 : FVec Ideal ⟨2, ![R, 1]⟩ .f32) (v2 v14 : FVec Ideal ⟨2, ![R, 128]⟩ .f32)
    (v8 v16 : FVec Ideal ⟨2, ![128, 128]⟩ .f32) (v10 : FVec Ideal ⟨2, ![1, 128]⟩ .f32) (p : Fin R) (j : Fin 128) :
    addf (addf (matmul d none
            (divf (shapeCast ⟨2, ![R, 128]⟩ v2 c2)
              (broadcastTo ⟨2, ![R, 128]⟩
                (maximumf (shapeCast ⟨2, ![R, 1]⟩ v0 c1) (broadcast ⟨2, ![R, 1]⟩ (Scalar.ofBits (F := Ideal) .f32 0x3F800000#32))) bc))
            v8 (constant (F := Ideal) ⟨2, ![R, 128]⟩ .f32 0x00000000#32))
          (broadcastTo ⟨2, ![R, 128]⟩ (shapeCast ⟨2, ![1, 128]⟩ v10 c3) bb))
        (matmul d none (shapeCast ⟨2, ![R, 128]⟩ v14 c2) v16 (constant (F := Ideal) ⟨2, ![R, 128]⟩ .f32 0x00000000#32))
        (ix2 p j)
      = (∑ k : Fin 128, Ideal.div (v2 (ix2 p k)) (max (v0 (ix2 p (0 : Fin 1))) (Ideal.ofBits .f32 0x3F800000#32)) * v8 (ix2 k j)
          + v10 (ix2 (0 : Fin 1) j))
        + ∑ k : Fin 128, v14 (ix2 p k) * v16 (ix2 k j) := by
  refine (addf_apply _ _ _).trans (congrArg₂ (· + ·)
    ((addf_apply _ _ _).trans (congrArg₂ (· + ·) ?_ (RowLayers.bias_apply v10 c3 bb p j))) ?_)
  · refine (matmul_zero_apply hd none _ v8 (ix2 p j)).trans ?_
    refine Finset.sum_congr rfl fun k _ => congrArg (· * v8 (ix2 k j)) ?_
    show divf _ _ (ix2 p k) = _
    refine (divf_apply _ _ _).trans ?_
    rw [shapeCast_self, ColumnLayout.broadcastTo_a1_ab_apply _ bc p k]
    refine congrArg (Ideal.div (v2 (ix2 p k))) ?_
    refine (maximumf_apply _ _ _).trans ?_
    rw [shapeCast_self]
    rfl
  · refine (matmul_zero_apply hd none _ v16 (ix2 p j)).trans ?_
    refine Finset.sum_congr rfl fun k _ => congrArg (· * v16 (ix2 k j)) ?_
    show shapeCast _ v14 c2 (ix2 p k) = _
    rw [shapeCast_self]

/-- The same block read against the whole arrays: where row `j 0` of the block's inputs is row `i 0` of the arrays
    `s`, `cn`, `xt` (the counts an [n, 1] column, the bias `b2` a [1, 128] row) and column `j 1` of its weights and
    bias is column `i 1` of theirs, the block's result at `j` is the layer of the whole arrays at `i`. -/
theorem block_row {R n : Nat} (d : DotDims ⟨2, ![R, 128]⟩ ⟨2, ![128, 128]⟩ ⟨2, ![R, 128]⟩) (hd : RowsCols d)
    (c1 : (⟨2, ![R, 1]⟩ : Shape).ShapeCasts ⟨2, ![R, 1]⟩) (c2 : (⟨2, ![R, 128]⟩ : Shape).ShapeCasts ⟨2, ![R, 128]⟩)
    (bc : (⟨2, ![R, 1]⟩ : Shape).Broadcasts ⟨2, ![R, 128]⟩)
    (c3 : (⟨2, ![1, 128]⟩ : Shape).ShapeCasts ⟨2, ![1, 128]⟩) (bb : (⟨2, ![1, 128]⟩ : Shape).Broadcasts ⟨2, ![R, 128]⟩)
    (v0 : FVec Ideal ⟨2, ![R, 1]⟩ .f32) (v2 v14 : FVec Ideal ⟨2, ![R, 128]⟩ .f32)
    (v8 v16 : FVec Ideal ⟨2, ![128, 128]⟩ .f32) (v10 : FVec Ideal ⟨2, ![1, 128]⟩ .f32)
    (s xt : (⟨2, ![n, 128]⟩ : Shape).Idx → EReal) (cn : (⟨2, ![n, 1]⟩ : Shape).Idx → EReal)
    (wl wr : (⟨2, ![128, 128]⟩ : Shape).Idx → EReal) (b2 : (⟨2, ![1, 128]⟩ : Shape).Idx → EReal)
    (j : (⟨2, ![R, 128]⟩ : Shape).Idx) (i : (⟨2, ![n, 128]⟩ : Shape).Idx)
    (h0 : ∀ k : Fin 128, v2 (ix2 (j 0 : Fin R) k) = s (ix2 (i 0 : Fin n) k))
    (h1 : v0 (ix2 (j 0 : Fin R) (0 : Fin 1)) = cn (ix2 (i 0 : Fin n) (0 : Fin 1)))
    (h2 : ∀ k : Fin 128, v14 (ix2 (j 0 : Fin R) k) = xt (ix2 (i 0 : Fin n) k))
    (h3 : ∀ k : Fin 128, v8 (ix2 k (j 1 : Fin 128)) = wl (ix2 k (i 1 : Fin 128)))
    (h4 : ∀ k : Fin 128, v16 (ix2 k (j 1 : Fin 128)) = wr (ix2 k (i 1 : Fin 128)))
    (h5 : v10 (ix2 (0 : Fin 1) (j 1 : Fin 128)) = b2 (ix2 (0 : Fin 1) (i 1 : Fin 128))) :
    addf (addf (matmul d none
            (divf (shapeCast ⟨2, ![R, 128]⟩ v2 c2)
              (broadcastTo ⟨2, ![R, 128]⟩
                (maximumf (shapeCast ⟨2, ![R, 1]⟩ v0 c1) (broadcast ⟨2, ![R, 1]⟩ (Scalar.ofBits (F := Ideal) .f32 0x3F800000#32))) bc))
            v8 (constant (F := Ideal) ⟨2, ![R, 128]⟩ .f32 0x00000000#32))
          (broadcastTo ⟨2, ![R, 128]⟩ (shapeCast ⟨2, ![1, 128]⟩ v10 c3) bb))
        (matmul d none (shapeCast ⟨2, ![R, 128]⟩ v14 c2) v16 (constant (F := Ideal) ⟨2, ![R, 128]⟩ .f32 0x00000000#32)) j
      = pre s (fun r => cn (ix2 (r 0 : Fin n) (0 : Fin 1))) xt wl wr (fun r => b2 (ix2 (0 : Fin 1) (r 0 : Fin 128))) i := by
  refine ((congrArg _ (eq_ix2 j)).trans
    (block_apply d hd c1 c2 bc c3 bb v0 v2 v14 v8 v16 v10 (j 0 : Fin R) (j 1 : Fin 128))).trans ?_
  show _ = (∑ k : Fin 128, Ideal.div (s (ix2 (i 0 : Fin n) k))
        (max (cn (ix2 (i 0 : Fin n) (0 : Fin 1))) (Ideal.ofBits .f32 0x3F800000#32)) * wl (ix2 k (i 1 : Fin 128))
      + b2 (ix2 (0 : Fin 1) (i 1 : Fin 128)))
    + ∑ k : Fin 128, xt (ix2 (i 0 : Fin n) k) * wr (ix2 k (i 1 : Fin 128))
  simp only [h0, h1, h2, h3, h4, h5]

/-- The counts given as a vector reshaped to an [n, 1] column, and the bias as a vector reshaped to a [1, 128] row, read
    back at their one free coordinate, are the vectors themselves. -/
theorem pre_cols {n : Nat} (s xt : (⟨2, ![n, 128]⟩ : Shape).Idx → EReal) (cnt : (⟨1, ![n]⟩ : Shape).Idx → EReal)
    (wl wr : (⟨2, ![128, 128]⟩ : Shape).Idx → EReal) (b : (⟨1, ![128]⟩ : Shape).Idx → EReal)
    (h₁ : (⟨1, ![n]⟩ : Shape).ShapeCasts ⟨2, ![n, 1]⟩) (h₂ : (⟨1, ![128]⟩ : Shape).ShapeCasts ⟨2, ![1, 128]⟩) :
    pre s (fun r => shapeCast ⟨2, ![n, 1]⟩ cnt h₁ (ix2 (r 0 : Fin n) (0 : Fin 1))) xt wl wr
        (fun r => shapeCast ⟨2, ![1, 128]⟩ b h₂ (ix2 (0 : Fin 1) (r 0 : Fin 128)))
      = pre s cnt xt wl wr b := by
  have e₁ : (fun r : (⟨1, ![n]⟩ : Shape).Idx => shapeCast ⟨2, ![n, 1]⟩ cnt h₁ (ix2 (r 0 : Fin n) (0 : Fin 1))) = cnt :=
    funext fun r => (ColumnLayout.shapeCast_a_a1_apply cnt h₁ (r 0) 0).trans (congrArg cnt (eq_ix1 r).symm)
  have e₂ : (fun r : (⟨1, ![128]⟩ : Shape).Idx => shapeCast ⟨2, ![1, 128]⟩ b h₂ (ix2 (0 : Fin 1) (r 0 : Fin 128))) = b :=
    funext fun r => (shapeCast_a_1a_apply b h₂ 0 (r 0)).trans (congrArg b (eq_ix1 r).symm)
  rw [e₁, e₂]

/-- All `n` rows of the layer at once, as the host computes it: the counts a vector, floored at 1, repeated along the
    rows; the bias a vector repeated down the rows. At (p, j) it is the layer's formula. -/
theorem whole_apply {n : Nat} (d : DotDims ⟨2, ![n, 128]⟩ ⟨2, ![128, 128]⟩ ⟨2, ![n, 128]⟩) (hd : RowsCols d)
    (b0 : (⟨0, ![]⟩ : Shape).BroadcastsInDim ⟨1, ![n]⟩ ![])
    (b1 : (⟨1, ![n]⟩ : Shape).BroadcastsInDim ⟨2, ![n, 1]⟩ ![0])
    (b2 : (⟨2, ![n, 1]⟩ : Shape).BroadcastsInDim ⟨2, ![n, 128]⟩ ![0, 1])
    (b3 : (⟨1, ![128]⟩ : Shape).BroadcastsInDim ⟨2, ![1, 128]⟩ ![1])
    (b4 : (⟨2, ![1, 128]⟩ : Shape).BroadcastsInDim ⟨2, ![n, 128]⟩ ![0, 1])
    (s xt : FVec Ideal ⟨2, ![n, 128]⟩ .f32) (cnt : FVec Ideal ⟨1, ![n]⟩ .f32)
    (wl wr : FVec Ideal ⟨2, ![128, 128]⟩ .f32) (b : FVec Ideal ⟨1, ![128]⟩ .f32) (i : (⟨2, ![n, 128]⟩ : Shape).Idx) :
    addf (addf (Host.dotGeneral d none
            (Host.divf s (broadcastInDim ⟨2, ![n, 128]⟩ ![0, 1] b2 (broadcastInDim ⟨2, ![n, 1]⟩ ![0] b1
              (maximumf cnt (broadcastInDim ⟨1, ![n]⟩ ![] b0 (constant (F := Ideal) ⟨0, ![]⟩ .f32 0x3F800000#32))))))
            wl)
          (broadcastInDim ⟨2, ![n, 128]⟩ ![0, 1] b4 (broadcastInDim ⟨2, ![1, 128]⟩ ![1] b3 b)))
        (Host.dotGeneral d none xt wr) i
      = pre s cnt xt wl wr b i := by
  obtain ⟨p, j, rfl⟩ : ∃ (p : Fin n) (j : Fin 128), i = ix2 p j := ⟨i 0, i 1, eq_ix2 i⟩
  refine (addf_apply _ _ _).trans (congrArg₂ (· + ·)
    ((addf_apply _ _ _).trans (congrArg₂ (· + ·) ?_ (row_apply b b3 b4 p j))) ?_)
  · refine (dotGeneral_apply hd none _ wl (ix2 p j)).trans ?_
    refine Finset.sum_congr rfl fun k _ => congrArg (· * wl (ix2 k j)) ?_
    show Host.divf _ _ (ix2 p k) = _
    show Ideal.div (s (ix2 p k)) _ = _
    refine congrArg (Ideal.div (s (ix2 p k))) ?_
    refine (column_apply _ b1 b2 p k).trans ?_
    rfl
  · exact dotGeneral_apply hd none xt wr (ix2 p j)

end Cert.Sage

end
-- ==== Proof.Launch0.lean ====
/-
  The first launch of the layer kernel: what its output array holds when the launch is over.

  The launch walks 8 grid points; point `t` is handed rows `t·10000 … t·10000 + 9999` of the neighbour sums, of the
  neighbour counts (an [80000, 1] column) and of the nodes' own features, together with the two whole weight matrices and
  the bias (a [1, 128] row), and writes back rows `t·10000 …` of the output. Row `p` of a block is computed from row `p`
  of the block's inputs alone, so what point `t` writes back is block `t` of ONE function of the whole input arrays —
  the layer followed by the rectifier — and the 8 blocks cover the output array: it ends holding that function, whatever the
  arrays held when the launch began. Stated for any contents `V` of the buffers at the launch.
-/
import proofs.«170427_j56160992363059_1_alg».proof.Proof.Gen.KernelIdeal.Frame
import proofs.«170427_j56160992363059_1_alg».proof.Proof.Layer

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)
open Cert.Dense

/-- The kernel's contraction is "rows times columns": one contracted axis of extent 128, the left operand read at
    (row, k) and the right at (k, column). -/
theorem contracts0 : RowsCols dot_S10000x128_S128x128_S10000x128_1_0_0_1_n_n where
  rank := rfl
  size := rfl
  l0 := fun j q => by
    unfold DotDims.lhsIdx
    rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
    rfl
  l1 := fun j q => dot_S10000x128_S128x128_S10000x128_1_0_0_1_n_n.lhsIdx_val_of_single rfl j q
  r0 := fun j q => dot_S10000x128_S128x128_S10000x128_1_0_0_1_n_n.rhsIdx_val_of_single rfl j q
  r1 := fun j q => by
    unfold DotDims.rhsIdx
    rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
    rfl

/-- The body's result at an entry `j` of the block, against whole arrays that hold, in row `i 0` and column `i 1`, what
    the block's inputs hold in row `j 0` and column `j 1`: the layer, rectified, of the whole arrays at `i`. -/
theorem body0_at (x0 x2 : Vec Ideal S10000x128 .f32) (x1 : Vec Ideal S10000x1 .f32) (x3 x4 : Vec Ideal S128x128 .f32) (x5 : Vec Ideal S1x128 .f32)
    (s xt : S80000x128.Idx → EReal) (cn : S80000x1.Idx → EReal) (wl wr : S128x128.Idx → EReal) (b2 : S1x128.Idx → EReal)
    (j : S10000x128.Idx) (i : S80000x128.Idx)
    (h0 : ∀ k : Fin 128, x0 (ix2 (j 0 : Fin 10000) k) = s (ix2 (i 0 : Fin 80000) k))
    (h1 : x1 (ix2 (j 0 : Fin 10000) (0 : Fin 1)) = cn (ix2 (i 0 : Fin 80000) (0 : Fin 1)))
    (h2 : ∀ k : Fin 128, x2 (ix2 (j 0 : Fin 10000) k) = xt (ix2 (i 0 : Fin 80000) k))
    (h3 : ∀ k : Fin 128, x3 (ix2 k (j 1 : Fin 128)) = wl (ix2 k (i 1 : Fin 128)))
    (h4 : ∀ k : Fin 128, x4 (ix2 k (j 1 : Fin 128)) = wr (ix2 k (i 1 : Fin 128)))
    (h5 : x5 (ix2 (0 : Fin 1) (j 1 : Fin 128)) = b2 (ix2 (0 : Fin 1) (i 1 : Fin 128))) :
    k0_pay1 (F := Ideal) x1 x0 x3 x5 x2 x4 j = Dense.relu (Sage.pre (n := 80000) (s) (fun r => cn (ix2 (r 0 : Fin 80000) (0 : Fin 1))) (xt) (wl) (wr) (fun r => b2 (ix2 (0 : Fin 1) (r 0 : Fin 128)))) i := by
  unfold k0_pay1
  exact (maximumf_apply _ _ j).trans (congrArg₂ max
    (Sage.block_row dot_S10000x128_S128x128_S10000x128_1_0_0_1_n_n contracts0 shapeCasts_S10000x1_S10000x1 shapeCasts_S10000x128_S10000x128 broadcasts_S10000x1_S10000x128
      shapeCasts_S1x128_S1x128 broadcasts_S1x128_S10000x128 x1 x0 x2 x3 x4 x5 s xt cn wl wr b2 j i h0 h1 h2 h3 h4 h5) rfl)

variable (V : (c : Dev nD) → (b : Ref sig .tc) → Buf (Elt Ideal) ((c : Thread nD τ).loc b))

/-- The layer, rectified, of the arrays the launch finds: the output array's final contents. -/
def layer0 (c : Dev nD) : S80000x128.Idx → EReal :=
  Dense.relu (Sage.pre (n := 80000) (V c main_v9) (fun r => V c main_v15 (ix2 (r 0 : Fin 80000) (0 : Fin 1))) (V c main_v14) (V c main_arg1) (V c main_arg2) (fun r => V c main_v16 (ix2 (0 : Fin 1) (r 0 : Fin 128))))

theorem origin0 : (![0, 0] : Fin 2 → Nat) = fun _ => 0 := funext fun a => by fin_cases a <;> rfl

/-- The printed index maps, decided over the grid: the three row-blocked inputs and the output are at block row `t`,
    block column 0; the weights and the bias at block (0, 0). -/
theorem maps0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Every block row of the output is some point's. -/
theorem onto0 : ∀ q : Fin 8, ∃ t : Fin cfg0.N, win0_6.index t = ![q.val, 0] :=
  (by decide +kernel : ∀ q : Fin 8, ∃ t : Fin grid0.N, win0_6.index t = ![q.val, 0])

set_option maxHeartbeats 1000000 in
/-- What point `t` writes back is block `t` of the layer of the arrays the launch finds. -/
theorem written0 (c : Dev nD) (t : Fin cfg0.N) :
    (dat0 V c).flushed 6 t = ((cfg0.win 6).blk t).view.read (Elt Ideal) (layer0 V c) := by
  show (cfg0.win 6).cut (grid0.coords t) ((dat0 V c).after 6 t) = _
  rw [after0_6]
  unfold out0_6
  rw [View.canon_unit_zero origin0]
  simp only [View.ld_unit_zero (S := S10000x128) origin0, View.ld_unit_zero (S := S10000x1) origin0,
    View.ld_unit_zero (S := S128x128) origin0, View.ld_unit_zero (S := S1x128) origin0]
  obtain ⟨e00, e01, e10, e11, e20, e21, e30, e31, e40, e41, e50, e51, e60, e61⟩ := maps0 t
  funext j
  show k0_pay1 (F := Ideal) (iblk0 V c 1 t) (iblk0 V c 0 t) (iblk0 V c 3 t) (iblk0 V c 5 t) (iblk0 V c 2 t) (iblk0 V c 4 t) j
    = layer0 V c (((cfg0.win 6).blk t).view.emb j)
  unfold layer0
  refine body0_at (iblk0 V c 0 t) (iblk0 V c 2 t) (iblk0 V c 1 t) (iblk0 V c 3 t) (iblk0 V c 4 t) (iblk0 V c 5 t)
    (V c main_v9) (V c main_v14) (V c main_v15) (V c main_arg1) (V c main_arg2) (V c main_v16) j (((cfg0.win 6).blk t).view.emb j) ?_ ?_ ?_ ?_ ?_ ?_
  · intro k
    show V c main_v9 (((cfg0.win 0).blk t).view.emb (ix2 (j 0) k)) = V c main_v9 (ix2 ((((cfg0.win 6).blk t).view.emb j) 0) k)
    refine congrArg (V c main_v9) (funext fun a => Fin.ext ?_)
    match a with
    | ⟨0, _⟩ => show win0_0.index t (0 : Fin 2) * 10000 + 1 * (j 0).val = win0_6.index t (0 : Fin 2) * 10000 + 1 * (j 0).val; omega
    | ⟨1, _⟩ => show win0_0.index t (1 : Fin 2) * 128 + 1 * k.val = k.val; omega
  · show V c main_v15 (((cfg0.win 1).blk t).view.emb (ix2 (j 0) (0 : Fin 1))) = V c main_v15 (ix2 ((((cfg0.win 6).blk t).view.emb j) 0) (0 : Fin 1))
    refine congrArg (V c main_v15) (funext fun a => Fin.ext ?_)
    match a with
    | ⟨0, _⟩ => show win0_1.index t (0 : Fin 2) * 10000 + 1 * (j 0).val = win0_6.index t (0 : Fin 2) * 10000 + 1 * (j 0).val; omega
    | ⟨1, _⟩ => show win0_1.index t (1 : Fin 2) * 1 + 1 * 0 = 0; omega
  · intro k
    show V c main_v14 (((cfg0.win 2).blk t).view.emb (ix2 (j 0) k)) = V c main_v14 (ix2 ((((cfg0.win 6).blk t).view.emb j) 0) k)
    refine congrArg (V c main_v14) (funext fun a => Fin.ext ?_)
    match a with
    | ⟨0, _⟩ => show win0_2.index t (0 : Fin 2) * 10000 + 1 * (j 0).val = win0_6.index t (0 : Fin 2) * 10000 + 1 * (j 0).val; omega
    | ⟨1, _⟩ => show win0_2.index t (1 : Fin 2) * 128 + 1 * k.val = k.val; omega
  · intro k
    show V c main_arg1 (((cfg0.win 3).blk t).view.emb (ix2 k (j 1))) = V c main_arg1 (ix2 k ((((cfg0.win 6).blk t).view.emb j) 1))
    refine congrArg (V c main_arg1) (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_6.index t (1 : Fin 2) * 128 + 1 * (j 1).val; omega
  · intro k
    show V c main_arg2 (((cfg0.win 4).blk t).view.emb (ix2 k (j 1))) = V c main_arg2 (ix2 k ((((cfg0.win 6).blk t).view.emb j) 1))
    refine congrArg (V c main_arg2) (funext fun a => Fin.ext ?_)
    match a with
    | ⟨0, _⟩ => show win0_4.index t (0 : Fin 2) * 128 + 1 * k.val = k.val; omega
    | ⟨1, _⟩ => show win0_4.index t (1 : Fin 2) * 128 + 1 * (j 1).val = win0_6.index t (1 : Fin 2) * 128 + 1 * (j 1).val; omega
  · show V c main_v16 (((cfg0.win 5).blk t).view.emb (ix2 (0 : Fin 1) (j 1))) = V c main_v16 (ix2 (0 : Fin 1) ((((cfg0.win 6).blk t).view.emb j) 1))
    refine congrArg (V c main_v16) (funext fun a => Fin.ext ?_)
    match a with
    | ⟨0, _⟩ => show win0_5.index t (0 : Fin 2) * 1 + 1 * 0 = 0; omega
    | ⟨1, _⟩ => show win0_5.index t (1 : Fin 2) * 128 + 1 * (j 1).val = win0_6.index t (1 : Fin 2) * 128 + 1 * (j 1).val; omega

/-- An index of the output array is in point `t`'s block iff each coordinate is in the block's range on its axis. -/
theorem inBlock0 (t : Fin cfg0.N) (i : S80000x128.Idx) :
    i ∈ ((cfg0.win 6).blk t).view.set ↔ ∀ a : Fin 2, win0_6.index t a * S10000x128.size a ≤ (i a).val ∧ (i a).val < win0_6.index t a * S10000x128.size a + S10000x128.size a := by
  show i ∈ ((View.whole main_v17).slice (win0_6.rect t)).set ↔ _
  rw [View.set_slice_whole, Rect.mem_set_unit]
  exact Iff.rfl

/-- Every index of the output array is in the block of the point that owns its row: row `r` belongs to point `r / 10000`. -/
theorem covered0 (i : S80000x128.Idx) : ∃ t : Fin cfg0.N, (cfg0.win 6).flush t = true ∧ i ∈ ((cfg0.win 6).blk t).view.set := by
  have hi0 : (i 0).val < 80000 := (i 0).isLt
  have hi1 : (i 1).val < 128 := (i 1).isLt
  obtain ⟨t, ht⟩ := onto0 ⟨(i 0).val / 10000, by omega⟩
  have q0 : win0_6.index t (0 : Fin 2) = (i 0).val / 10000 := congrFun ht 0
  have q1 : win0_6.index t (1 : Fin 2) = 0 := congrFun ht 1
  refine ⟨t, flush0_6 t, ?_⟩
  rw [inBlock0]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 128 ≤ (i 1).val ∧ (i 1).val < win0_6.index t (1 : Fin 2) * 128 + 128; omega

/-- The output array after the launch: the layer, rectified, of the arrays the launch found. -/
theorem final0 (c : Dev nD) : (dat0 V c).arrAt 6 cfg0.N = layer0 V c :=
  (dat0 V c).arrAt_eq_of_cover 6 (layer0 V c) (fun t _ => written0 V c t) covered0

end Cert.KernelIdeal.Blocks

end
-- ==== Proof.Launch1.lean ====
/-
  The second launch of the layer kernel: what its output array holds when the launch is over.

  The launch walks 4 grid points; point `t` is handed rows `t·4000 … t·4000 + 3999` of the neighbour sums, of the
  neighbour counts (an [16000, 1] column) and of the nodes' own features, together with the two whole weight matrices and
  the bias (a [1, 128] row), and writes back rows `t·4000 …` of the output. Row `p` of a block is computed from row `p`
  of the block's inputs alone, so what point `t` writes back is block `t` of ONE function of the whole input arrays —
  the layer followed by the rectifier — and the 4 blocks cover the output array: it ends holding that function, whatever the
  arrays held when the launch began. Stated for any contents `V` of the buffers at the launch.
-/
import proofs.«170427_j56160992363059_1_alg».proof.Proof.Gen.KernelIdeal.Frame
import proofs.«170427_j56160992363059_1_alg».proof.Proof.Layer

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)
open Cert.Dense

/-- The kernel's contraction is "rows times columns": one contracted axis of extent 128, the left operand read at
    (row, k) and the right at (k, column). -/
theorem contracts1 : RowsCols dot_S4000x128_S128x128_S4000x128_1_0_0_1_n_n where
  rank := rfl
  size := rfl
  l0 := fun j q => by
    unfold DotDims.lhsIdx
    rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
    rfl
  l1 := fun j q => dot_S4000x128_S128x128_S4000x128_1_0_0_1_n_n.lhsIdx_val_of_single rfl j q
  r0 := fun j q => dot_S4000x128_S128x128_S4000x128_1_0_0_1_n_n.rhsIdx_val_of_single rfl j q
  r1 := fun j q => by
    unfold DotDims.rhsIdx
    rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
    rfl

/-- The body's result at an entry `j` of the block, against whole arrays that hold, in row `i 0` and column `i 1`, what
    the block's inputs hold in row `j 0` and column `j 1`: the layer, rectified, of the whole arrays at `i`. -/
theorem body1_at (x0 x2 : Vec Ideal S4000x128 .f32) (x1 : Vec Ideal S4000x1 .f32) (x3 x4 : Vec Ideal S128x128 .f32) (x5 : Vec Ideal S1x128 .f32)
    (s xt : S16000x128.Idx → EReal) (cn : S16000x1.Idx → EReal) (wl wr : S128x128.Idx → EReal) (b2 : S1x128.Idx → EReal)
    (j : S4000x128.Idx) (i : S16000x128.Idx)
    (h0 : ∀ k : Fin 128, x0 (ix2 (j 0 : Fin 4000) k) = s (ix2 (i 0 : Fin 16000) k))
    (h1 : x1 (ix2 (j 0 : Fin 4000) (0 : Fin 1)) = cn (ix2 (i 0 : Fin 16000) (0 : Fin 1)))
    (h2 : ∀ k : Fin 128, x2 (ix2 (j 0 : Fin 4000) k) = xt (ix2 (i 0 : Fin 16000) k))
    (h3 : ∀ k : Fin 128, x3 (ix2 k (j 1 : Fin 128)) = wl (ix2 k (i 1 : Fin 128)))
    (h4 : ∀ k : Fin 128, x4 (ix2 k (j 1 : Fin 128)) = wr (ix2 k (i 1 : Fin 128)))
    (h5 : x5 (ix2 (0 : Fin 1) (j 1 : Fin 128)) = b2 (ix2 (0 : Fin 1) (i 1 : Fin 128))) :
    k1_pay1 (F := Ideal) x1 x0 x3 x5 x2 x4 j = Dense.relu (Sage.pre (n := 16000) (s) (fun r => cn (ix2 (r 0 : Fin 16000) (0 : Fin 1))) (xt) (wl) (wr) (fun r => b2 (ix2 (0 : Fin 1) (r 0 : Fin 128)))) i := by
  unfold k1_pay1
  exact (maximumf_apply _ _ j).trans (congrArg₂ max
    (Sage.block_row dot_S4000x128_S128x128_S4000x128_1_0_0_1_n_n contracts1 shapeCasts_S4000x1_S4000x1 shapeCasts_S4000x128_S4000x128 broadcasts_S4000x1_S4000x128
      shapeCasts_S1x128_S1x128 broadcasts_S1x128_S4000x128 x1 x0 x2 x3 x4 x5 s xt cn wl wr b2 j i h0 h1 h2 h3 h4 h5) rfl)

variable (V : (c : Dev nD) → (b : Ref sig .tc) → Buf (Elt Ideal) ((c : Thread nD τ).loc b))

/-- The layer, rectified, of the arrays the launch finds: the output array's final contents. -/
def layer1 (c : Dev nD) : S16000x128.Idx → EReal :=
  Dense.relu (Sage.pre (n := 16000) (V c main_v27) (fun r => V c main_v33 (ix2 (r 0 : Fin 16000) (0 : Fin 1))) (V c main_v32) (V c main_arg4) (V c main_arg5) (fun r => V c main_v34 (ix2 (0 : Fin 1) (r 0 : Fin 128))))

theorem origin1 : (![0, 0] : Fin 2 → Nat) = fun _ => 0 := funext fun a => by fin_cases a <;> rfl

/-- The printed index maps, decided over the grid: the three row-blocked inputs and the output are at block row `t`,
    block column 0; the weights and the bias at block (0, 0). -/
theorem maps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Every block row of the output is some point's. -/
theorem onto1 : ∀ q : Fin 4, ∃ t : Fin cfg1.N, win1_6.index t = ![q.val, 0] :=
  (by decide +kernel : ∀ q : Fin 4, ∃ t : Fin grid1.N, win1_6.index t = ![q.val, 0])

set_option maxHeartbeats 1000000 in
/-- What point `t` writes back is block `t` of the layer of the arrays the launch finds. -/
theorem written1 (c : Dev nD) (t : Fin cfg1.N) :
    (dat1 V c).flushed 6 t = ((cfg1.win 6).blk t).view.read (Elt Ideal) (layer1 V c) := by
  show (cfg1.win 6).cut (grid1.coords t) ((dat1 V c).after 6 t) = _
  rw [after1_6]
  unfold out1_6
  rw [View.canon_unit_zero origin1]
  simp only [View.ld_unit_zero (S := S4000x128) origin1, View.ld_unit_zero (S := S4000x1) origin1,
    View.ld_unit_zero (S := S128x128) origin1, View.ld_unit_zero (S := S1x128) origin1]
  obtain ⟨e00, e01, e10, e11, e20, e21, e30, e31, e40, e41, e50, e51, e60, e61⟩ := maps1 t
  funext j
  show k1_pay1 (F := Ideal) (iblk1 V c 1 t) (iblk1 V c 0 t) (iblk1 V c 3 t) (iblk1 V c 5 t) (iblk1 V c 2 t) (iblk1 V c 4 t) j
    = layer1 V c (((cfg1.win 6).blk t).view.emb j)
  unfold layer1
  refine body1_at (iblk1 V c 0 t) (iblk1 V c 2 t) (iblk1 V c 1 t) (iblk1 V c 3 t) (iblk1 V c 4 t) (iblk1 V c 5 t)
    (V c main_v27) (V c main_v32) (V c main_v33) (V c main_arg4) (V c main_arg5) (V c main_v34) j (((cfg1.win 6).blk t).view.emb j) ?_ ?_ ?_ ?_ ?_ ?_
  · intro k
    show V c main_v27 (((cfg1.win 0).blk t).view.emb (ix2 (j 0) k)) = V c main_v27 (ix2 ((((cfg1.win 6).blk t).view.emb j) 0) k)
    refine congrArg (V c main_v27) (funext fun a => Fin.ext ?_)
    match a with
    | ⟨0, _⟩ => show win1_0.index t (0 : Fin 2) * 4000 + 1 * (j 0).val = win1_6.index t (0 : Fin 2) * 4000 + 1 * (j 0).val; omega
    | ⟨1, _⟩ => show win1_0.index t (1 : Fin 2) * 128 + 1 * k.val = k.val; omega
  · show V c main_v33 (((cfg1.win 1).blk t).view.emb (ix2 (j 0) (0 : Fin 1))) = V c main_v33 (ix2 ((((cfg1.win 6).blk t).view.emb j) 0) (0 : Fin 1))
    refine congrArg (V c main_v33) (funext fun a => Fin.ext ?_)
    match a with
    | ⟨0, _⟩ => show win1_1.index t (0 : Fin 2) * 4000 + 1 * (j 0).val = win1_6.index t (0 : Fin 2) * 4000 + 1 * (j 0).val; omega
    | ⟨1, _⟩ => show win1_1.index t (1 : Fin 2) * 1 + 1 * 0 = 0; omega
  · intro k
    show V c main_v32 (((cfg1.win 2).blk t).view.emb (ix2 (j 0) k)) = V c main_v32 (ix2 ((((cfg1.win 6).blk t).view.emb j) 0) k)
    refine congrArg (V c main_v32) (funext fun a => Fin.ext ?_)
    match a with
    | ⟨0, _⟩ => show win1_2.index t (0 : Fin 2) * 4000 + 1 * (j 0).val = win1_6.index t (0 : Fin 2) * 4000 + 1 * (j 0).val; omega
    | ⟨1, _⟩ => show win1_2.index t (1 : Fin 2) * 128 + 1 * k.val = k.val; omega
  · intro k
    show V c main_arg4 (((cfg1.win 3).blk t).view.emb (ix2 k (j 1))) = V c main_arg4 (ix2 k ((((cfg1.win 6).blk t).view.emb j) 1))
    refine congrArg (V c main_arg4) (funext fun a => Fin.ext ?_)
    match a with
    | ⟨0, _⟩ => show win1_3.index t (0 : Fin 2) * 128 + 1 * k.val = k.val; omega
    | ⟨1, _⟩ => show win1_3.index t (1 : Fin 2) * 128 + 1 * (j 1).val = win1_6.index t (1 : Fin 2) * 128 + 1 * (j 1).val; omega
  · intro k
    show V c main_arg5 (((cfg1.win 4).blk t).view.emb (ix2 k (j 1))) = V c main_arg5 (ix2 k ((((cfg1.win 6).blk t).view.emb j) 1))
    refine congrArg (V c main_arg5) (funext fun a => Fin.ext ?_)
    match a with
    | ⟨0, _⟩ => show win1_4.index t (0 : Fin 2) * 128 + 1 * k.val = k.val; omega
    | ⟨1, _⟩ => show win1_4.index t (1 : Fin 2) * 128 + 1 * (j 1).val = win1_6.index t (1 : Fin 2) * 128 + 1 * (j 1).val; omega
  · show V c main_v34 (((cfg1.win 5).blk t).view.emb (ix2 (0 : Fin 1) (j 1))) = V c main_v34 (ix2 (0 : Fin 1) ((((cfg1.win 6).blk t).view.emb j) 1))
    refine congrArg (V c main_v34) (funext fun a => Fin.ext ?_)
    match a with
    | ⟨0, _⟩ => show win1_5.index t (0 : Fin 2) * 1 + 1 * 0 = 0; omega
    | ⟨1, _⟩ => show win1_5.index t (1 : Fin 2) * 128 + 1 * (j 1).val = win1_6.index t (1 : Fin 2) * 128 + 1 * (j 1).val; omega

/-- An index of the output array is in point `t`'s block iff each coordinate is in the block's range on its axis. -/
theorem inBlock1 (t : Fin cfg1.N) (i : S16000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v35).slice (win1_6.rect t)).set ↔ _
  rw [View.set_slice_whole, Rect.mem_set_unit]
  exact Iff.rfl

/-- Every index of the output array is in the block of the point that owns its row: row `r` belongs to point `r / 4000`. -/
theorem covered1 (i : S16000x128.Idx) : ∃ t : Fin cfg1.N, (cfg1.win 6).flush t = true ∧ i ∈ ((cfg1.win 6).blk t).view.set := by
  have hi0 : (i 0).val < 16000 := (i 0).isLt
  have hi1 : (i 1).val < 128 := (i 1).isLt
  obtain ⟨t, ht⟩ := onto1 ⟨(i 0).val / 4000, by omega⟩
  have q0 : win1_6.index t (0 : Fin 2) = (i 0).val / 4000 := congrFun ht 0
  have q1 : win1_6.index t (1 : Fin 2) = 0 := congrFun ht 1
  refine ⟨t, flush1_6 t, ?_⟩
  rw [inBlock1]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 128 ≤ (i 1).val ∧ (i 1).val < win1_6.index t (1 : Fin 2) * 128 + 128; omega

/-- The output array after the launch: the layer, rectified, of the arrays the launch found. -/
theorem final1 (c : Dev nD) : (dat1 V c).arrAt 6 cfg1.N = layer1 V c :=
  (dat1 V c).arrAt_eq_of_cover 6 (layer1 V c) (fun t _ => written1 V c t) covered1

end Cert.KernelIdeal.Blocks

end
-- ==== Proof.Launch2.lean ====
/-
  The third launch of the layer kernel: what its output array holds when the launch is over.

  The launch walks 1 grid point; point `t` is handed rows `t·4096 … t·4096 + 4095` of the neighbour sums, of the
  neighbour counts (an [4096, 1] column) and of the nodes' own features, together with the two whole weight matrices and
  the bias (a [1, 128] row), and writes back rows `t·4096 …` of the output. Row `p` of a block is computed from row `p`
  of the block's inputs alone, so what point `t` writes back is block `t` of ONE function of the whole input arrays —
  the layer — and the 1 block covers the output array: it ends holding that function, whatever the
  arrays held when the launch began. Stated for any contents `V` of the buffers at the launch.
-/
import proofs.«170427_j56160992363059_1_alg».proof.Proof.Gen.KernelIdeal.Frame
import proofs.«170427_j56160992363059_1_alg».proof.Proof.Layer

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)
open Cert.Dense

/-- The kernel's contraction is "rows times columns": one contracted axis of extent 128, the left operand read at
    (row, k) and the right at (k, column). -/
theorem contracts2 : RowsCols dot_S4096x128_S128x128_S4096x128_1_0_0_1_n_n where
  rank := rfl
  size := rfl
  l0 := fun j q => by
    unfold DotDims.lhsIdx
    rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
    rfl
  l1 := fun j q => dot_S4096x128_S128x128_S4096x128_1_0_0_1_n_n.lhsIdx_val_of_single rfl j q
  r0 := fun j q => dot_S4096x128_S128x128_S4096x128_1_0_0_1_n_n.rhsIdx_val_of_single rfl j q
  r1 := fun j q => by
    unfold DotDims.rhsIdx
    rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
    rfl

/-- The body's result at an entry `j` of the block, against whole arrays that hold, in row `i 0` and column `i 1`, what
    the block's inputs hold in row `j 0` and column `j 1`: the layer of the whole arrays at `i`. -/
theorem body2_at (x0 x2 : Vec Ideal S4096x128 .f32) (x1 : Vec Ideal S4096x1 .f32) (x3 x4 : Vec Ideal S128x128 .f32) (x5 : Vec Ideal S1x128 .f32)
    (s xt : S4096x128.Idx → EReal) (cn : S4096x1.Idx → EReal) (wl wr : S128x128.Idx → EReal) (b2 : S1x128.Idx → EReal)
    (j : S4096x128.Idx) (i : S4096x128.Idx)
    (h0 : ∀ k : Fin 128, x0 (ix2 (j 0 : Fin 4096) k) = s (ix2 (i 0 : Fin 4096) k))
    (h1 : x1 (ix2 (j 0 : Fin 4096) (0 : Fin 1)) = cn (ix2 (i 0 : Fin 4096) (0 : Fin 1)))
    (h2 : ∀ k : Fin 128, x2 (ix2 (j 0 : Fin 4096) k) = xt (ix2 (i 0 : Fin 4096) k))
    (h3 : ∀ k : Fin 128, x3 (ix2 k (j 1 : Fin 128)) = wl (ix2 k (i 1 : Fin 128)))
    (h4 : ∀ k : Fin 128, x4 (ix2 k (j 1 : Fin 128)) = wr (ix2 k (i 1 : Fin 128)))
    (h5 : x5 (ix2 (0 : Fin 1) (j 1 : Fin 128)) = b2 (ix2 (0 : Fin 1) (i 1 : Fin 128))) :
    k2_pay1 (F := Ideal) x1 x0 x3 x5 x2 x4 j = Sage.pre (n := 4096) (s) (fun r => cn (ix2 (r 0 : Fin 4096) (0 : Fin 1))) (xt) (wl) (wr) (fun r => b2 (ix2 (0 : Fin 1) (r 0 : Fin 128))) i := by
  unfold k2_pay1
  exact Sage.block_row dot_S4096x128_S128x128_S4096x128_1_0_0_1_n_n contracts2 shapeCasts_S4096x1_S4096x1 shapeCasts_S4096x128_S4096x128 broadcasts_S4096x1_S4096x128
    shapeCasts_S1x128_S1x128 broadcasts_S1x128_S4096x128 x1 x0 x2 x3 x4 x5 s xt cn wl wr b2 j i h0 h1 h2 h3 h4 h5

variable (V : (c : Dev nD) → (b : Ref sig .tc) → Buf (Elt Ideal) ((c : Thread nD τ).loc b))

/-- The layer of the arrays the launch finds: the output array's final contents. -/
def layer2 (c : Dev nD) : S4096x128.Idx → EReal :=
  Sage.pre (n := 4096) (V c main_v45) (fun r => V c main_v51 (ix2 (r 0 : Fin 4096) (0 : Fin 1))) (V c main_v50) (V c main_arg7) (V c main_arg8) (fun r => V c main_v52 (ix2 (0 : Fin 1) (r 0 : Fin 128)))

theorem origin2 : (![0, 0] : Fin 2 → Nat) = fun _ => 0 := funext fun a => by fin_cases a <;> rfl

/-- The printed index maps, decided over the grid: the three row-blocked inputs and the output are at block row `t`,
    block column 0; the weights and the bias at block (0, 0). -/
theorem maps2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Every block row of the output is some point's. -/
theorem onto2 : ∀ q : Fin 1, ∃ t : Fin cfg2.N, win2_6.index t = ![q.val, 0] :=
  (by decide +kernel : ∀ q : Fin 1, ∃ t : Fin grid2.N, win2_6.index t = ![q.val, 0])

set_option maxHeartbeats 1000000 in
/-- What point `t` writes back is block `t` of the layer of the arrays the launch finds. -/
theorem written2 (c : Dev nD) (t : Fin cfg2.N) :
    (dat2 V c).flushed 6 t = ((cfg2.win 6).blk t).view.read (Elt Ideal) (layer2 V c) := by
  show (cfg2.win 6).cut (grid2.coords t) ((dat2 V c).after 6 t) = _
  rw [after2_6]
  unfold out2_6
  rw [View.canon_unit_zero origin2]
  simp only [View.ld_unit_zero (S := S4096x128) origin2, View.ld_unit_zero (S := S4096x1) origin2,
    View.ld_unit_zero (S := S128x128) origin2, View.ld_unit_zero (S := S1x128) origin2]
  obtain ⟨e00, e01, e10, e11, e20, e21, e30, e31, e40, e41, e50, e51, e60, e61⟩ := maps2 t
  funext j
  show k2_pay1 (F := Ideal) (iblk2 V c 1 t) (iblk2 V c 0 t) (iblk2 V c 3 t) (iblk2 V c 5 t) (iblk2 V c 2 t) (iblk2 V c 4 t) j
    = layer2 V c (((cfg2.win 6).blk t).view.emb j)
  unfold layer2
  refine body2_at (iblk2 V c 0 t) (iblk2 V c 2 t) (iblk2 V c 1 t) (iblk2 V c 3 t) (iblk2 V c 4 t) (iblk2 V c 5 t)
    (V c main_v45) (V c main_v50) (V c main_v51) (V c main_arg7) (V c main_arg8) (V c main_v52) j (((cfg2.win 6).blk t).view.emb j) ?_ ?_ ?_ ?_ ?_ ?_
  · intro k
    show V c main_v45 (((cfg2.win 0).blk t).view.emb (ix2 (j 0) k)) = V c main_v45 (ix2 ((((cfg2.win 6).blk t).view.emb j) 0) k)
    refine congrArg (V c main_v45) (funext fun a => Fin.ext ?_)
    match a with
    | ⟨0, _⟩ => show win2_0.index t (0 : Fin 2) * 4096 + 1 * (j 0).val = win2_6.index t (0 : Fin 2) * 4096 + 1 * (j 0).val; omega
    | ⟨1, _⟩ => show win2_0.index t (1 : Fin 2) * 128 + 1 * k.val = k.val; omega
  · show V c main_v51 (((cfg2.win 1).blk t).view.emb (ix2 (j 0) (0 : Fin 1))) = V c main_v51 (ix2 ((((cfg2.win 6).blk t).view.emb j) 0) (0 : Fin 1))
    refine congrArg (V c main_v51) (funext fun a => Fin.ext ?_)
    match a with
    | ⟨0, _⟩ => show win2_1.index t (0 : Fin 2) * 4096 + 1 * (j 0).val = win2_6.index t (0 : Fin 2) * 4096 + 1 * (j 0).val; omega
    | ⟨1, _⟩ => show win2_1.index t (1 : Fin 2) * 1 + 1 * 0 = 0; omega
  · intro k
    show V c main_v50 (((cfg2.win 2).blk t).view.emb (ix2 (j 0) k)) = V c main_v50 (ix2 ((((cfg2.win 6).blk t).view.emb j) 0) k)
    refine congrArg (V c main_v50) (funext fun a => Fin.ext ?_)
    match a with
    | ⟨0, _⟩ => show win2_2.index t (0 : Fin 2) * 4096 + 1 * (j 0).val = win2_6.index t (0 : Fin 2) * 4096 + 1 * (j 0).val; omega
    | ⟨1, _⟩ => show win2_2.index t (1 : Fin 2) * 128 + 1 * k.val = k.val; omega
  · intro k
    show V c main_arg7 (((cfg2.win 3).blk t).view.emb (ix2 k (j 1))) = V c main_arg7 (ix2 k ((((cfg2.win 6).blk t).view.emb j) 1))
    refine congrArg (V c main_arg7) (funext fun a => Fin.ext ?_)
    match a with
    | ⟨0, _⟩ => show win2_3.index t (0 : Fin 2) * 128 + 1 * k.val = k.val; omega
    | ⟨1, _⟩ => show win2_3.index t (1 : Fin 2) * 128 + 1 * (j 1).val = win2_6.index t (1 : Fin 2) * 128 + 1 * (j 1).val; omega
  · intro k
    show V c main_arg8 (((cfg2.win 4).blk t).view.emb (ix2 k (j 1))) = V c main_arg8 (ix2 k ((((cfg2.win 6).blk t).view.emb j) 1))
    refine congrArg (V c main_arg8) (funext fun a => Fin.ext ?_)
    match a with
    | ⟨0, _⟩ => show win2_4.index t (0 : Fin 2) * 128 + 1 * k.val = k.val; omega
    | ⟨1, _⟩ => show win2_4.index t (1 : Fin 2) * 128 + 1 * (j 1).val = win2_6.index t (1 : Fin 2) * 128 + 1 * (j 1).val; omega
  · show V c main_v52 (((cfg2.win 5).blk t).view.emb (ix2 (0 : Fin 1) (j 1))) = V c main_v52 (ix2 (0 : Fin 1) ((((cfg2.win 6).blk t).view.emb j) 1))
    refine congrArg (V c main_v52) (funext fun a => Fin.ext ?_)
    match a with
    | ⟨0, _⟩ => show win2_5.index t (0 : Fin 2) * 1 + 1 * 0 = 0; omega
    | ⟨1, _⟩ => show win2_5.index t (1 : Fin 2) * 128 + 1 * (j 1).val = win2_6.index t (1 : Fin 2) * 128 + 1 * (j 1).val; omega

/-- An index of the output array is in point `t`'s block iff each coordinate is in the block's range on its axis. -/
theorem inBlock2 (t : Fin cfg2.N) (i : S4096x128.Idx) :
    i ∈ ((cfg2.win 6).blk t).view.set ↔ ∀ a : Fin 2, win2_6.index t a * S4096x128.size a ≤ (i a).val ∧ (i a).val < win2_6.index t a * S4096x128.size a + S4096x128.size a := by
  show i ∈ ((View.whole main_v53).slice (win2_6.rect t)).set ↔ _
  rw [View.set_slice_whole, Rect.mem_set_unit]
  exact Iff.rfl

/-- Every index of the output array is in the block of the point that owns its row: row `r` belongs to point `r / 4096`. -/
theorem covered2 (i : S4096x128.Idx) : ∃ t : Fin cfg2.N, (cfg2.win 6).flush t = true ∧ i ∈ ((cfg2.win 6).blk t).view.set := by
  have hi0 : (i 0).val < 4096 := (i 0).isLt
  have hi1 : (i 1).val < 128 := (i 1).isLt
  obtain ⟨t, ht⟩ := onto2 ⟨(i 0).val / 4096, by omega⟩
  have q0 : win2_6.index t (0 : Fin 2) = (i 0).val / 4096 := congrFun ht 0
  have q1 : win2_6.index t (1 : Fin 2) = 0 := congrFun ht 1
  refine ⟨t, flush2_6 t, ?_⟩
  rw [inBlock2]
  intro a
  match a with
  | ⟨0, _⟩ => show win2_6.index t (0 : Fin 2) * 4096 ≤ (i 0).val ∧ (i 0).val < win2_6.index t (0 : Fin 2) * 4096 + 4096; omega
  | ⟨1, _⟩ => show win2_6.index t (1 : Fin 2) * 128 ≤ (i 1).val ∧ (i 1).val < win2_6.index t (1 : Fin 2) * 128 + 128; omega

/-- The output array after the launch: the layer of the arrays the launch found. -/
theorem final2 (c : Dev nD) : (dat2 V c).arrAt 6 cfg2.N = layer2 V c :=
  (dat2 V c).arrAt_eq_of_cover 6 (layer2 V c) (fun t _ => written2 V c t) covered2

end Cert.KernelIdeal.Blocks

end
-- ==== Proof.Net.lean ====
/-
  The three-layer network as one function of the program's arguments, on the extended reals.

  Each layer works on the previous layer's output `h` (the input features for the first): it gathers the rows of
  `h` at the edges' source nodes, adds each gathered row into the row of its edge's target node (the neighbour sums),
  counts the edges per target node, takes the first rows of `h` as the target nodes' own features, and applies the
  layer formula; the first two layers are followed by the rectifier. The gather, the two scatter-additions and the
  slice are the host's own operations, the same in both programs: they are named here and never opened.
-/
import proofs.«170427_j56160992363059_1_alg».proof.Proof.Gen.ReferenceIdeal.Read
import proofs.«170427_j56160992363059_1_alg».proof.Proof.Layer

noncomputable section

namespace Cert.Sage.Net

open Cert.ReferenceIdeal Cert.ReferenceIdeal.Gen Cert.ReferenceIdeal.Read Idealize.ShloMosaic Cert.Dense

/-- The first layer's output: the neighbour sums of the input features `x0` over the first edge list `(x10, x11)`, the
    neighbour counts over its targets `x11`, the first 80000 rows of `x0`, through the layer and the rectifier. -/
def h1 (x0 : (⟨S400000x128, .f32⟩ : BufTy).Contents (Elt Ideal)) (x1 x2 : (⟨S128x128, .f32⟩ : BufTy).Contents (Elt Ideal)) (x3 : (⟨S128, .f32⟩ : BufTy).Contents (Elt Ideal))
    (x10 x11 : (⟨S1200000, .i32⟩ : BufTy).Contents (Elt Ideal)) : S80000x128.Idx → EReal :=
  relu (pre (n := 80000) (val_main_v9 (F := Ideal) x0 x10 x11) (val_main_v13 (F := Ideal) x11) (val_main_v23 (F := Ideal) x0) x1 x2 x3)

/-- The neighbour sums of the second layer: rows of `h` gathered at the edges' sources `x12` (a negative index counted
    from the end), added into the rows of the edges' targets `x13`. -/
def sums2 (h : FVec Ideal S80000x128 .f32) (x12 x13 : (⟨S240000, .i32⟩ : BufTy).Contents (Elt Ideal)) : FVec Ideal S16000x128 .f32 :=
  Host.scatterAdd (F := Ideal) (φ := .f32) scatter_S16000x128_S240000x1_S240000x128_1_0_0_1 (val_main_v34 (F := Ideal)) (val_main_v35 (F := Ideal) x13)
    (Host.gather gather_S80000x128_S240000x1_S240000x128_1_0_n_n_0_1_1128 h (val_main_v32 (F := Ideal) x12))

/-- The second layer's target nodes are the first 16000 nodes of the first layer's. -/
def own2 (h : FVec Ideal S80000x128 .f32) : FVec Ideal S16000x128 .f32 :=
  extractStridedSlice S16000x128 ![0, 0] h slices_S80000x128_S16000x128_0_0

/-- The second layer's output, from the first layer's output `h`. -/
def h2 (h : FVec Ideal S80000x128 .f32) (x4 x5 : (⟨S128x128, .f32⟩ : BufTy).Contents (Elt Ideal)) (x6 : (⟨S128, .f32⟩ : BufTy).Contents (Elt Ideal))
    (x12 x13 : (⟨S240000, .i32⟩ : BufTy).Contents (Elt Ideal)) : S16000x128.Idx → EReal :=
  relu (pre (n := 16000) (sums2 h x12 x13) (val_main_v40 (F := Ideal) x13) (own2 h) x4 x5 x6)

/-- The neighbour sums of the third layer. -/
def sums3 (h : FVec Ideal S16000x128 .f32) (x14 x15 : (⟨S61440, .i32⟩ : BufTy).Contents (Elt Ideal)) : FVec Ideal S4096x128 .f32 :=
  Host.scatterAdd (F := Ideal) (φ := .f32) scatter_S4096x128_S61440x1_S61440x128_1_0_0_1 (val_main_v61 (F := Ideal)) (val_main_v62 (F := Ideal) x15)
    (Host.gather gather_S16000x128_S61440x1_S61440x128_1_0_n_n_0_1_1128 h (val_main_v59 (F := Ideal) x14))

/-- The third layer's target nodes are the first 4096 nodes of the second layer's. -/
def own3 (h : FVec Ideal S16000x128 .f32) : FVec Ideal S4096x128 .f32 :=
  extractStridedSlice S4096x128 ![0, 0] h slices_S16000x128_S4096x128_0_0

/-- The third layer's output, from the second layer's output `h`: no rectifier. -/
def h3 (h : FVec Ideal S16000x128 .f32) (x7 x8 : (⟨S128x128, .f32⟩ : BufTy).Contents (Elt Ideal)) (x9 : (⟨S128, .f32⟩ : BufTy).Contents (Elt Ideal))
    (x14 x15 : (⟨S61440, .i32⟩ : BufTy).Contents (Elt Ideal)) : S4096x128.Idx → EReal :=
  pre (n := 4096) (sums3 h x14 x15) (val_main_v67 (F := Ideal) x15) (own3 h) x7 x8 x9

end Cert.Sage.Net

end
-- ==== Proof.KernelValue.lean ====
/-
  The kernel program's three results are the network's three layers.

  The program's buffers are followed through its six segments. A stretch of host operations leaves in each buffer it
  writes the operation's value of what it read — so the neighbour sums, the neighbour counts (reshaped to a column),
  the first rows of the previous layer's output and the bias (reshaped to a row) stand in their buffers when a launch
  begins — and leaves every other buffer alone; a launch leaves its output array at the layer of the arrays it found
  and every other buffer alone. Reading the three result buffers back through the fold gives the network's three
  layers of the arguments' launch contents.
-/
import proofs.«170427_j56160992363059_1_alg».proof.Proof.KernelRun
import proofs.«170427_j56160992363059_1_alg».proof.Proof.Launch0
import proofs.«170427_j56160992363059_1_alg».proof.Proof.Launch1
import proofs.«170427_j56160992363059_1_alg».proof.Proof.Launch2
import proofs.«170427_j56160992363059_1_alg».proof.Proof.Net

set_option maxRecDepth 16384

noncomputable section

namespace Cert.KernelIdeal.Fold

open Cert.KernelIdeal Cert.KernelIdeal.Gen Cert.KernelIdeal.Blocks
open Idealize.ShloMosaic Idealize.ShloMosaic.TcCoe Idealize.ShloMosaic.ValueIdx Idealize.ShloMosaic.StableHlo Idealize.SL.Sem
open Cert.Sage Cert.Dense
open Cert.ReferenceIdeal.Read (val_main_v9 val_main_v13 val_main_v23 val_main_v40 val_main_v67)

variable (m : (ℓ : Loc nD τ sig) → Buf (Elt Ideal) ℓ) (ρ : Dev nD → PrngReg) (c : Dev nD)

/-! ## The arguments, read where a launch or a stretch finds them: no segment writes one -/

theorem arg1_at1 : W1 m ρ c (Proc.devRef .tc main_arg1) = (m ((c : Thread nD τ).loc main_arg1)) := by
  show StableHlo.after hostOps0 (W0 m ρ c) (Proc.devRef .tc main_arg1) = _
  after_results
theorem arg2_at1 : W1 m ρ c (Proc.devRef .tc main_arg2) = (m ((c : Thread nD τ).loc main_arg2)) := by
  show StableHlo.after hostOps0 (W0 m ρ c) (Proc.devRef .tc main_arg2) = _
  after_results
theorem arg4_at1 : W1 m ρ c (Proc.devRef .tc main_arg4) = (m ((c : Thread nD τ).loc main_arg4)) := by
  show StableHlo.after hostOps0 (W0 m ρ c) (Proc.devRef .tc main_arg4) = _
  after_results
theorem arg5_at1 : W1 m ρ c (Proc.devRef .tc main_arg5) = (m ((c : Thread nD τ).loc main_arg5)) := by
  show StableHlo.after hostOps0 (W0 m ρ c) (Proc.devRef .tc main_arg5) = _
  after_results
theorem arg6_at1 : W1 m ρ c (Proc.devRef .tc main_arg6) = (m ((c : Thread nD τ).loc main_arg6)) := by
  show StableHlo.after hostOps0 (W0 m ρ c) (Proc.devRef .tc main_arg6) = _
  after_results
theorem arg7_at1 : W1 m ρ c (Proc.devRef .tc main_arg7) = (m ((c : Thread nD τ).loc main_arg7)) := by
  show StableHlo.after hostOps0 (W0 m ρ c) (Proc.devRef .tc main_arg7) = _
  after_results
theorem arg8_at1 : W1 m ρ c (Proc.devRef .tc main_arg8) = (m ((c : Thread nD τ).loc main_arg8)) := by
  show StableHlo.after hostOps0 (W0 m ρ c) (Proc.devRef .tc main_arg8) = _
  after_results
theorem arg9_at1 : W1 m ρ c (Proc.devRef .tc main_arg9) = (m ((c : Thread nD τ).loc main_arg9)) := by
  show StableHlo.after hostOps0 (W0 m ρ c) (Proc.devRef .tc main_arg9) = _
  after_results
theorem arg12_at1 : W1 m ρ c (Proc.devRef .tc main_arg12) = (m ((c : Thread nD τ).loc main_arg12)) := by
  show StableHlo.after hostOps0 (W0 m ρ c) (Proc.devRef .tc main_arg12) = _
  after_results
theorem arg13_at1 : W1 m ρ c (Proc.devRef .tc main_arg13) = (m ((c : Thread nD τ).loc main_arg13)) := by
  show StableHlo.after hostOps0 (W0 m ρ c) (Proc.devRef .tc main_arg13) = _
  after_results
theorem arg14_at1 : W1 m ρ c (Proc.devRef .tc main_arg14) = (m ((c : Thread nD τ).loc main_arg14)) := by
  show StableHlo.after hostOps0 (W0 m ρ c) (Proc.devRef .tc main_arg14) = _
  after_results
theorem arg15_at1 : W1 m ρ c (Proc.devRef .tc main_arg15) = (m ((c : Thread nD τ).loc main_arg15)) := by
  show StableHlo.after hostOps0 (W0 m ρ c) (Proc.devRef .tc main_arg15) = _
  after_results

theorem arg4_at2 : W2 m ρ c (Proc.devRef .tc main_arg4) = (m ((c : Thread nD τ).loc main_arg4)) :=
  (W2_of_ne m ρ c main_arg4 (by decide)).trans (arg4_at1 m ρ c)
theorem arg5_at2 : W2 m ρ c (Proc.devRef .tc main_arg5) = (m ((c : Thread nD τ).loc main_arg5)) :=
  (W2_of_ne m ρ c main_arg5 (by decide)).trans (arg5_at1 m ρ c)
theorem arg6_at2 : W2 m ρ c (Proc.devRef .tc main_arg6) = (m ((c : Thread nD τ).loc main_arg6)) :=
  (W2_of_ne m ρ c main_arg6 (by decide)).trans (arg6_at1 m ρ c)
theorem arg7_at2 : W2 m ρ c (Proc.devRef .tc main_arg7) = (m ((c : Thread nD τ).loc main_arg7)) :=
  (W2_of_ne m ρ c main_arg7 (by decide)).trans (arg7_at1 m ρ c)
theorem arg8_at2 : W2 m ρ c (Proc.devRef .tc main_arg8) = (m ((c : Thread nD τ).loc main_arg8)) :=
  (W2_of_ne m ρ c main_arg8 (by decide)).trans (arg8_at1 m ρ c)
theorem arg9_at2 : W2 m ρ c (Proc.devRef .tc main_arg9) = (m ((c : Thread nD τ).loc main_arg9)) :=
  (W2_of_ne m ρ c main_arg9 (by decide)).trans (arg9_at1 m ρ c)
theorem arg12_at2 : W2 m ρ c (Proc.devRef .tc main_arg12) = (m ((c : Thread nD τ).loc main_arg12)) :=
  (W2_of_ne m ρ c main_arg12 (by decide)).trans (arg12_at1 m ρ c)
theorem arg13_at2 : W2 m ρ c (Proc.devRef .tc main_arg13) = (m ((c : Thread nD τ).loc main_arg13)) :=
  (W2_of_ne m ρ c main_arg13 (by decide)).trans (arg13_at1 m ρ c)
theorem arg14_at2 : W2 m ρ c (Proc.devRef .tc main_arg14) = (m ((c : Thread nD τ).loc main_arg14)) :=
  (W2_of_ne m ρ c main_arg14 (by decide)).trans (arg14_at1 m ρ c)
theorem arg15_at2 : W2 m ρ c (Proc.devRef .tc main_arg15) = (m ((c : Thread nD τ).loc main_arg15)) :=
  (W2_of_ne m ρ c main_arg15 (by decide)).trans (arg15_at1 m ρ c)

theorem arg4_at3 : W3 m ρ c (Proc.devRef .tc main_arg4) = (m ((c : Thread nD τ).loc main_arg4)) := by
  show StableHlo.after hostOps1 (W2 m ρ c) (Proc.devRef .tc main_arg4) = _
  after_results
  exact arg4_at2 m ρ c
theorem arg5_at3 : W3 m ρ c (Proc.devRef .tc main_arg5) = (m ((c : Thread nD τ).loc main_arg5)) := by
  show StableHlo.after hostOps1 (W2 m ρ c) (Proc.devRef .tc main_arg5) = _
  after_results
  exact arg5_at2 m ρ c
theorem arg7_at3 : W3 m ρ c (Proc.devRef .tc main_arg7) = (m ((c : Thread nD τ).loc main_arg7)) := by
  show StableHlo.after hostOps1 (W2 m ρ c) (Proc.devRef .tc main_arg7) = _
  after_results
  exact arg7_at2 m ρ c
theorem arg8_at3 : W3 m ρ c (Proc.devRef .tc main_arg8) = (m ((c : Thread nD τ).loc main_arg8)) := by
  show StableHlo.after hostOps1 (W2 m ρ c) (Proc.devRef .tc main_arg8) = _
  after_results
  exact arg8_at2 m ρ c
theorem arg9_at3 : W3 m ρ c (Proc.devRef .tc main_arg9) = (m ((c : Thread nD τ).loc main_arg9)) := by
  show StableHlo.after hostOps1 (W2 m ρ c) (Proc.devRef .tc main_arg9) = _
  after_results
  exact arg9_at2 m ρ c
theorem arg14_at3 : W3 m ρ c (Proc.devRef .tc main_arg14) = (m ((c : Thread nD τ).loc main_arg14)) := by
  show StableHlo.after hostOps1 (W2 m ρ c) (Proc.devRef .tc main_arg14) = _
  after_results
  exact arg14_at2 m ρ c
theorem arg15_at3 : W3 m ρ c (Proc.devRef .tc main_arg15) = (m ((c : Thread nD τ).loc main_arg15)) := by
  show StableHlo.after hostOps1 (W2 m ρ c) (Proc.devRef .tc main_arg15) = _
  after_results
  exact arg15_at2 m ρ c

theorem arg7_at4 : W4 m ρ c (Proc.devRef .tc main_arg7) = (m ((c : Thread nD τ).loc main_arg7)) :=
  (W4_of_ne m ρ c main_arg7 (by decide)).trans (arg7_at3 m ρ c)
theorem arg8_at4 : W4 m ρ c (Proc.devRef .tc main_arg8) = (m ((c : Thread nD τ).loc main_arg8)) :=
  (W4_of_ne m ρ c main_arg8 (by decide)).trans (arg8_at3 m ρ c)
theorem arg9_at4 : W4 m ρ c (Proc.devRef .tc main_arg9) = (m ((c : Thread nD τ).loc main_arg9)) :=
  (W4_of_ne m ρ c main_arg9 (by decide)).trans (arg9_at3 m ρ c)
theorem arg14_at4 : W4 m ρ c (Proc.devRef .tc main_arg14) = (m ((c : Thread nD τ).loc main_arg14)) :=
  (W4_of_ne m ρ c main_arg14 (by decide)).trans (arg14_at3 m ρ c)
theorem arg15_at4 : W4 m ρ c (Proc.devRef .tc main_arg15) = (m ((c : Thread nD τ).loc main_arg15)) :=
  (W4_of_ne m ρ c main_arg15 (by decide)).trans (arg15_at3 m ρ c)

theorem arg7_at5 : W5 m ρ c (Proc.devRef .tc main_arg7) = (m ((c : Thread nD τ).loc main_arg7)) := by
  show StableHlo.after hostOps2 (W4 m ρ c) (Proc.devRef .tc main_arg7) = _
  after_results
  exact arg7_at4 m ρ c
theorem arg8_at5 : W5 m ρ c (Proc.devRef .tc main_arg8) = (m ((c : Thread nD τ).loc main_arg8)) := by
  show StableHlo.after hostOps2 (W4 m ρ c) (Proc.devRef .tc main_arg8) = _
  after_results
  exact arg8_at4 m ρ c

/-! ## The first launch -/

theorem sums_at1 : V1 m ρ c main_v9 = val_main_v9 (F := Ideal) (m ((c : Thread nD τ).loc main_arg0)) (m ((c : Thread nD τ).loc main_arg10)) (m ((c : Thread nD τ).loc main_arg11)) := by
  show StableHlo.after hostOps0 (W0 m ρ c) (Proc.devRef .tc main_v9) = _
  after_results
  rfl
theorem counts_at1 : V1 m ρ c main_v15 = shapeCast S80000x1 (val_main_v13 (F := Ideal) (m ((c : Thread nD τ).loc main_arg11))) shapeCasts_S80000_S80000x1 := by
  show StableHlo.after hostOps0 (W0 m ρ c) (Proc.devRef .tc main_v15) = _
  after_results
  rfl
theorem own_at1 : V1 m ρ c main_v14 = val_main_v23 (F := Ideal) (m ((c : Thread nD τ).loc main_arg0)) := by
  show StableHlo.after hostOps0 (W0 m ρ c) (Proc.devRef .tc main_v14) = _
  after_results
  rfl
theorem bias_at1 : V1 m ρ c main_v16 = shapeCast S1x128 (m ((c : Thread nD τ).loc main_arg3)) shapeCasts_S128_S1x128 := by
  show StableHlo.after hostOps0 (W0 m ρ c) (Proc.devRef .tc main_v16) = _
  after_results
  rfl
theorem wl_at1 : V1 m ρ c main_arg1 = (m ((c : Thread nD τ).loc main_arg1)) := arg1_at1 m ρ c
theorem wr_at1 : V1 m ρ c main_arg2 = (m ((c : Thread nD τ).loc main_arg2)) := arg2_at1 m ρ c

/-- The first launch's output array, when the launch is over, is the network's first layer. -/
theorem first_at2 : W2 m ρ c (Proc.devRef .tc main_v17)
    = Net.h1 (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11)) := by
  refine (W2_arr m ρ c 6).trans ((final0 (V1 m ρ) c).trans ?_)
  unfold layer0 Net.h1
  rw [sums_at1, counts_at1, own_at1, wl_at1, wr_at1, bias_at1]
  exact congrArg relu (pre_cols _ _ _ _ _ _ shapeCasts_S80000_S80000x1 shapeCasts_S128_S1x128)

/-! ## The second launch -/

set_option maxHeartbeats 1000000 in
theorem sums_at3 : V3 m ρ c main_v27 = Net.sums2 (W2 m ρ c (Proc.devRef .tc main_v17)) (m ((c : Thread nD τ).loc main_arg12)) (m ((c : Thread nD τ).loc main_arg13)) := by
  show StableHlo.after hostOps1 (W2 m ρ c) (Proc.devRef .tc main_v27) = _
  after_results
  rw [arg12_at2, arg13_at2]
  rfl
set_option maxHeartbeats 1000000 in
theorem counts_at3 : V3 m ρ c main_v33 = shapeCast S16000x1 (val_main_v40 (F := Ideal) (m ((c : Thread nD τ).loc main_arg13))) shapeCasts_S16000_S16000x1 := by
  show StableHlo.after hostOps1 (W2 m ρ c) (Proc.devRef .tc main_v33) = _
  after_results
  rw [arg13_at2]
  rfl
set_option maxHeartbeats 1000000 in
theorem own_at3 : V3 m ρ c main_v32 = Net.own2 (W2 m ρ c (Proc.devRef .tc main_v17)) := by
  show StableHlo.after hostOps1 (W2 m ρ c) (Proc.devRef .tc main_v32) = _
  after_results
  rfl
theorem bias_at3 : V3 m ρ c main_v34 = shapeCast S1x128 (m ((c : Thread nD τ).loc main_arg6)) shapeCasts_S128_S1x128 := by
  show StableHlo.after hostOps1 (W2 m ρ c) (Proc.devRef .tc main_v34) = _
  after_results
  rw [arg6_at2]
  rfl
theorem wl_at3 : V3 m ρ c main_arg4 = (m ((c : Thread nD τ).loc main_arg4)) := arg4_at3 m ρ c
theorem wr_at3 : V3 m ρ c main_arg5 = (m ((c : Thread nD τ).loc main_arg5)) := arg5_at3 m ρ c

/-- The second launch's output array, when the launch is over, is the network's second layer of the first launch's. -/
theorem second_at4 : W4 m ρ c (Proc.devRef .tc main_v35)
    = Net.h2 (W2 m ρ c (Proc.devRef .tc main_v17)) (m ((c : Thread nD τ).loc main_arg4)) (m ((c : Thread nD τ).loc main_arg5)) (m ((c : Thread nD τ).loc main_arg6)) (m ((c : Thread nD τ).loc main_arg12)) (m ((c : Thread nD τ).loc main_arg13)) := by
  refine (W4_arr m ρ c 6).trans ((final1 (V3 m ρ) c).trans ?_)
  unfold layer1 Net.h2
  rw [sums_at3, counts_at3, own_at3, wl_at3, wr_at3, bias_at3]
  exact congrArg relu (pre_cols _ _ _ _ _ _ shapeCasts_S16000_S16000x1 shapeCasts_S128_S1x128)

/-! ## The third launch -/

set_option maxHeartbeats 1000000 in
theorem sums_at5 : V5 m ρ c main_v45 = Net.sums3 (W4 m ρ c (Proc.devRef .tc main_v35)) (m ((c : Thread nD τ).loc main_arg14)) (m ((c : Thread nD τ).loc main_arg15)) := by
  show StableHlo.after hostOps2 (W4 m ρ c) (Proc.devRef .tc main_v45) = _
  after_results
  rw [arg14_at4, arg15_at4]
  rfl
set_option maxHeartbeats 1000000 in
theorem counts_at5 : V5 m ρ c main_v51 = shapeCast S4096x1 (val_main_v67 (F := Ideal) (m ((c : Thread nD τ).loc main_arg15))) shapeCasts_S4096_S4096x1 := by
  show StableHlo.after hostOps2 (W4 m ρ c) (Proc.devRef .tc main_v51) = _
  after_results
  rw [arg15_at4]
  rfl
set_option maxHeartbeats 1000000 in
theorem own_at5 : V5 m ρ c main_v50 = Net.own3 (W4 m ρ c (Proc.devRef .tc main_v35)) := by
  show StableHlo.after hostOps2 (W4 m ρ c) (Proc.devRef .tc main_v50) = _
  after_results
  rfl
theorem bias_at5 : V5 m ρ c main_v52 = shapeCast S1x128 (m ((c : Thread nD τ).loc main_arg9)) shapeCasts_S128_S1x128 := by
  show StableHlo.after hostOps2 (W4 m ρ c) (Proc.devRef .tc main_v52) = _
  after_results
  rw [arg9_at4]
  rfl
theorem wl_at5 : V5 m ρ c main_arg7 = (m ((c : Thread nD τ).loc main_arg7)) := arg7_at5 m ρ c
theorem wr_at5 : V5 m ρ c main_arg8 = (m ((c : Thread nD τ).loc main_arg8)) := arg8_at5 m ρ c

/-- The third launch's output array, when the launch is over, is the network's third layer of the second launch's. -/
theorem third_at6 : W6 m ρ c (Proc.devRef .tc main_v53)
    = Net.h3 (W4 m ρ c (Proc.devRef .tc main_v35)) (m ((c : Thread nD τ).loc main_arg7)) (m ((c : Thread nD τ).loc main_arg8)) (m ((c : Thread nD τ).loc main_arg9)) (m ((c : Thread nD τ).loc main_arg14)) (m ((c : Thread nD τ).loc main_arg15)) := by
  refine (W6_arr m ρ c 6).trans ((final2 (V5 m ρ) c).trans ?_)
  unfold layer2 Net.h3
  rw [sums_at5, counts_at5, own_at5, wl_at5, wr_at5, bias_at5]
  exact pre_cols _ _ _ _ _ _ shapeCasts_S4096_S4096x1 shapeCasts_S128_S1x128

/-! ## The results at the end: an earlier launch's output is written by nothing after it -/

theorem first_at4 : W4 m ρ c (Proc.devRef .tc main_v17) = W2 m ρ c (Proc.devRef .tc main_v17) := by
  refine (W4_of_ne m ρ c main_v17 (by decide)).trans ?_
  show StableHlo.after hostOps1 (W2 m ρ c) (Proc.devRef .tc main_v17) = _
  after_results

theorem first_at6 : W6 m ρ c (Proc.devRef .tc main_v17) = W2 m ρ c (Proc.devRef .tc main_v17) := by
  refine (W6_of_ne m ρ c main_v17 (by decide)).trans ?_
  show StableHlo.after hostOps2 (W4 m ρ c) (Proc.devRef .tc main_v17) = _
  after_results
  exact first_at4 m ρ c

theorem second_at6 : W6 m ρ c (Proc.devRef .tc main_v35) = W4 m ρ c (Proc.devRef .tc main_v35) := by
  refine (W6_of_ne m ρ c main_v35 (by decide)).trans ?_
  show StableHlo.after hostOps2 (W4 m ρ c) (Proc.devRef .tc main_v35) = _
  after_results

/-- The network's first layer of the arguments, as the kernel program's memory holds them. -/
abbrev net1 : S80000x128.Idx → EReal :=
  Net.h1 (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11))
/-- The network's second layer. -/
abbrev net2 : S16000x128.Idx → EReal :=
  Net.h2 (net1 m c) (m ((c : Thread nD τ).loc main_arg4)) (m ((c : Thread nD τ).loc main_arg5)) (m ((c : Thread nD τ).loc main_arg6)) (m ((c : Thread nD τ).loc main_arg12)) (m ((c : Thread nD τ).loc main_arg13))
/-- The network's third layer. -/
abbrev net3 : S4096x128.Idx → EReal :=
  Net.h3 (net2 m c) (m ((c : Thread nD τ).loc main_arg7)) (m ((c : Thread nD τ).loc main_arg8)) (m ((c : Thread nD τ).loc main_arg9)) (m ((c : Thread nD τ).loc main_arg14)) (m ((c : Thread nD τ).loc main_arg15))

theorem result1 : W6 m ρ c (Proc.devRef .tc main_v17) = net1 m c :=
  (first_at6 m ρ c).trans (first_at2 m ρ c)

theorem result2 : W6 m ρ c (Proc.devRef .tc main_v35) = net2 m c := by
  refine (second_at6 m ρ c).trans ((second_at4 m ρ c).trans ?_)
  rw [first_at2]

theorem result3 : W6 m ρ c (Proc.devRef .tc main_v53) = net3 m c := by
  refine (third_at6 m ρ c).trans ?_
  rw [second_at4, first_at2]

/-- Every weakly fair execution of the kernel program terminates without a fault, with its three results at the
    network's three layers of the arguments and the arguments as launched. -/
theorem value : θ_run defs (onTc (τ := τ) (main (F := Ideal))) ⟨m, fun _ => 0, ρ⟩ (fun r => ∀ c : Dev nD,
      r.2.mem ((c.tc : Thread nD τ).loc main_v17) = net1 m c
      ∧ r.2.mem ((c.tc : Thread nD τ).loc main_v35) = net2 m c
      ∧ r.2.mem ((c.tc : Thread nD τ).loc main_v53) = net3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c).1.trans (result1 m ρ c), (h c).2.1.trans (result2 m ρ c), (h c).2.2.1.trans (result3 m ρ c), (h c).2.2.2⟩)
    (run m ρ)

end Cert.KernelIdeal.Fold

end
-- ==== Proof.ReferenceLayers.lean ====
/-
  The reference program's three results are the network's three layers.

  The reference computes each layer on all its rows at once: the counts floored at 1 and repeated along the rows,
  the quotient, the product with the first weight matrix, the bias repeated down the rows, the product of the
  nodes' own rows with the second matrix, the two sums, and (first two layers) the maximum with zero. Read at an
  entry this is the layer formula; the gathers, scatter-additions and slices that feed a layer are the network's own
  named operations, applied to the previous layer's result.
-/
import proofs.«170427_j56160992363059_1_alg».proof.Proof.Net

set_option maxRecDepth 16384

noncomputable section

namespace Cert.ReferenceIdeal.Layers

open Cert.ReferenceIdeal Cert.ReferenceIdeal.Gen Cert.ReferenceIdeal.Read Idealize.ShloMosaic Idealize.ShloMosaic.ValueIdx Cert.Dense Cert.Sage

/-- The host's contraction over 80000 rows is "rows times columns". -/
theorem contracts80000 : RowsCols dot_S80000x128_S128x128_S80000x128_1_0_0_1_n_n where
  rank := rfl
  size := rfl
  l0 := fun j q => by
    unfold DotDims.lhsIdx
    rw [dif_neg (show ¬(0 : Fin S80000x128.rank) ∈ dot_S80000x128_S128x128_S80000x128_1_0_0_1_n_n.lhsBatch by decide), dif_pos (show (0 : Fin S80000x128.rank) ∈ dot_S80000x128_S128x128_S80000x128_1_0_0_1_n_n.lhsNonContracting by decide)]
    rfl
  l1 := fun j q => dot_S80000x128_S128x128_S80000x128_1_0_0_1_n_n.lhsIdx_val_of_single rfl j q
  r0 := fun j q => dot_S80000x128_S128x128_S80000x128_1_0_0_1_n_n.rhsIdx_val_of_single rfl j q
  r1 := fun j q => by
    unfold DotDims.rhsIdx
    rw [dif_neg (show ¬(1 : Fin S128x128.rank) ∈ dot_S80000x128_S128x128_S80000x128_1_0_0_1_n_n.rhsBatch by decide), dif_pos (show (1 : Fin S128x128.rank) ∈ dot_S80000x128_S128x128_S80000x128_1_0_0_1_n_n.rhsNonContracting by decide)]
    rfl

/-- The host's contraction over 16000 rows is "rows times columns". -/
theorem contracts16000 : RowsCols dot_S16000x128_S128x128_S16000x128_1_0_0_1_n_n where
  rank := rfl
  size := rfl
  l0 := fun j q => by
    unfold DotDims.lhsIdx
    rw [dif_neg (show ¬(0 : Fin S16000x128.rank) ∈ dot_S16000x128_S128x128_S16000x128_1_0_0_1_n_n.lhsBatch by decide), dif_pos (show (0 : Fin S16000x128.rank) ∈ dot_S16000x128_S128x128_S16000x128_1_0_0_1_n_n.lhsNonContracting by decide)]
    rfl
  l1 := fun j q => dot_S16000x128_S128x128_S16000x128_1_0_0_1_n_n.lhsIdx_val_of_single rfl j q
  r0 := fun j q => dot_S16000x128_S128x128_S16000x128_1_0_0_1_n_n.rhsIdx_val_of_single rfl j q
  r1 := fun j q => by
    unfold DotDims.rhsIdx
    rw [dif_neg (show ¬(1 : Fin S128x128.rank) ∈ dot_S16000x128_S128x128_S16000x128_1_0_0_1_n_n.rhsBatch by decide), dif_pos (show (1 : Fin S128x128.rank) ∈ dot_S16000x128_S128x128_S16000x128_1_0_0_1_n_n.rhsNonContracting by decide)]
    rfl

/-- The host's contraction over 4096 rows is "rows times columns". -/
theorem contracts4096 : RowsCols dot_S4096x128_S128x128_S4096x128_1_0_0_1_n_n where
  rank := rfl
  size := rfl
  l0 := fun j q => by
    unfold DotDims.lhsIdx
    rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
    rfl
  l1 := fun j q => dot_S4096x128_S128x128_S4096x128_1_0_0_1_n_n.lhsIdx_val_of_single rfl j q
  r0 := fun j q => dot_S4096x128_S128x128_S4096x128_1_0_0_1_n_n.rhsIdx_val_of_single rfl j q
  r1 := fun j q => by
    unfold DotDims.rhsIdx
    rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
    rfl

/-- The reference's first result is the network's first layer. -/
theorem first (x0 : (⟨S400000x128, .f32⟩ : BufTy).Contents (Elt Ideal)) (x1 x2 : (⟨S128x128, .f32⟩ : BufTy).Contents (Elt Ideal)) (x3 : (⟨S128, .f32⟩ : BufTy).Contents (Elt Ideal)) (x10 x11 : (⟨S1200000, .i32⟩ : BufTy).Contents (Elt Ideal)) :
    val_main_v26 (F := Ideal) x0 x1 x2 x3 x10 x11 = Net.h1 x0 x1 x2 x3 x10 x11 := by
  funext i
  refine (maximumf_apply _ _ i).trans (congrArg₂ max ?_ rfl)
  exact whole_apply dot_S80000x128_S128x128_S80000x128_1_0_0_1_n_n contracts80000 bcast_S_S80000 bcast_S80000_S80000x1_0 bcast_S80000x1_S80000x128_0_1 bcast_S128_S1x128_1 bcast_S1x128_S80000x128_0_1
    (val_main_v9 (F := Ideal) x0 x10 x11) (val_main_v23 (F := Ideal) x0) (val_main_v13 (F := Ideal) x11) x1 x2 x3 i

/-- The reference's second result is the network's second layer of its first result. -/
theorem second (x0 : (⟨S400000x128, .f32⟩ : BufTy).Contents (Elt Ideal)) (x1 x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal))
    (x10 x11 : (⟨S1200000, .i32⟩ : BufTy).Contents (Elt Ideal)) (x12 x13 : (⟨S240000, .i32⟩ : BufTy).Contents (Elt Ideal)) :
    val_main_v53 (F := Ideal) x0 x1 x2 x3 x4 x5 x6 x10 x11 x12 x13
      = Net.h2 (val_main_v26 (F := Ideal) x0 x1 x2 x3 x10 x11) x4 x5 x6 x12 x13 := by
  funext i
  refine (maximumf_apply _ _ i).trans (congrArg₂ max ?_ rfl)
  exact whole_apply dot_S16000x128_S128x128_S16000x128_1_0_0_1_n_n contracts16000 bcast_S_S16000 bcast_S16000_S16000x1_0 bcast_S16000x1_S16000x128_0_1 bcast_S128_S1x128_1 bcast_S1x128_S16000x128_0_1
    (Net.sums2 (val_main_v26 (F := Ideal) x0 x1 x2 x3 x10 x11) x12 x13) (Net.own2 (val_main_v26 (F := Ideal) x0 x1 x2 x3 x10 x11))
    (val_main_v40 (F := Ideal) x13) x4 x5 x6 i

/-- The reference's third result is the network's third layer of its second result. -/
theorem third (x0 : (⟨S400000x128, .f32⟩ : BufTy).Contents (Elt Ideal)) (x1 x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal))
    (x7 x8 : (⟨S128x128, .f32⟩ : BufTy).Contents (Elt Ideal)) (x9 : (⟨S128, .f32⟩ : BufTy).Contents (Elt Ideal))
    (x10 x11 : (⟨S1200000, .i32⟩ : BufTy).Contents (Elt Ideal)) (x12 x13 : (⟨S240000, .i32⟩ : BufTy).Contents (Elt Ideal)) (x14 x15 : (⟨S61440, .i32⟩ : BufTy).Contents (Elt Ideal)) :
    val_main_v79 (F := Ideal) x0 x1 x2 x3 x4 x5 x6 x7 x8 x9 x10 x11 x12 x13 x14 x15
      = Net.h3 (val_main_v53 (F := Ideal) x0 x1 x2 x3 x4 x5 x6 x10 x11 x12 x13) x7 x8 x9 x14 x15 := by
  funext i
  exact whole_apply dot_S4096x128_S128x128_S4096x128_1_0_0_1_n_n contracts4096 bcast_S_S4096 bcast_S4096_S4096x1_0 bcast_S4096x1_S4096x128_0_1 bcast_S128_S1x128_1 bcast_S1x128_S4096x128_0_1
    (Net.sums3 (val_main_v53 (F := Ideal) x0 x1 x2 x3 x4 x5 x6 x10 x11 x12 x13) x14 x15)
    (Net.own3 (val_main_v53 (F := Ideal) x0 x1 x2 x3 x4 x5 x6 x10 x11 x12 x13))
    (val_main_v67 (F := Ideal) x15) x7 x8 x9 i

end Cert.ReferenceIdeal.Layers

end
-- ==== Proof.lean ====
/-
  The certificate: a three-layer graph network (mean of the in-neighbours through one matrix, plus a bias, plus the
  node's own features through a second matrix; a rectifier after the first two layers), computed by a program that
  runs each layer's dense part as a kernel over blocks of target rows, against a reference that computes each layer
  on all rows at once.

  On the extended reals the two programs agree result by result. A layer's value at (r, j) is

      (∑ k, (s (r, k) / max (cnt r) 1) · wl (k, j) + b j) + ∑ k, xt (r, k) · wr (k, j)

  in both, in this grouping (Proof/Layer.lean); row `p` of a block depends only on row `p` of the block's inputs, so
  the blocks a launch writes back are the blocks of that one function and they cover the output (Proof/Launch0–2);
  the gathers, scatter-additions and slices around the launches are the same host operations in both programs and
  are never opened (Proof/Net.lean). The kernel program's results are read off the fold of its six segments
  (Proof/KernelRun.lean, Proof/KernelValue.lean), the reference's off its run (Proof/ReferenceLayers.lean). Both sides
  are the same sums of the same terms in the same order: the inputs' finiteness is never used.

  The three frames are the generated ones; the idealization rewrote nothing, so `preserves` is trivial.
-/
import proofs.«170427_j56160992363059_1_alg».proof.Defs
import proofs.«170427_j56160992363059_1_alg».proof.Proof.Gen.Kernel
import proofs.«170427_j56160992363059_1_alg».proof.Proof.Gen.Kernel.Skeleton
import proofs.«170427_j56160992363059_1_alg».proof.Proof.Gen.Kernel.Launch
import proofs.«170427_j56160992363059_1_alg».proof.Proof.Gen.Kernel.Points
import proofs.«170427_j56160992363059_1_alg».proof.Proof.Gen.Kernel.Frame
import proofs.«170427_j56160992363059_1_alg».proof.Proof.Gen.KernelIdeal
import proofs.«170427_j56160992363059_1_alg».proof.Proof.Gen.KernelIdeal.Skeleton
import proofs.«170427_j56160992363059_1_alg».proof.Proof.Gen.KernelIdeal.Launch
import proofs.«170427_j56160992363059_1_alg».proof.Proof.Gen.KernelIdeal.Points
import proofs.«170427_j56160992363059_1_alg».proof.Proof.Gen.KernelIdeal.Frame
import proofs.«170427_j56160992363059_1_alg».proof.Proof.Gen.ReferenceIdeal
import proofs.«170427_j56160992363059_1_alg».proof.Proof.Gen.ReferenceIdeal.Run
import proofs.«170427_j56160992363059_1_alg».proof.Proof.Gen.ReferenceIdeal.Read
import proofs.«170427_j56160992363059_1_alg».proof.Proof.Gen.Pre_finite_inputs
import proofs.«170427_j56160992363059_1_alg».proof.Proof.KernelValue
import proofs.«170427_j56160992363059_1_alg».proof.Proof.ReferenceLayers
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- From memories that agree on the arguments both programs end with the network's three layers of those arguments
    in their three results. -/
theorem algebraic : Cert.algebraic_KernelIdeal_ReferenceIdeal := by
  intro m ρ m' ρ' _ hagree
  refine ⟨fun c => Cert.KernelIdeal.Fold.net1 m c, fun c => Cert.KernelIdeal.Fold.net2 m c,
    fun c => Cert.KernelIdeal.Fold.net3 m c, Cert.KernelIdeal.Fold.value m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11, a12, a13, a14, a15⟩ := hagree c
  obtain ⟨e1, e2, e3, kept⟩ := h c
  refine ⟨e1.trans ?_, e2.trans ?_, e3.trans ?_, kept⟩
  · refine (Cert.ReferenceIdeal.Read.val_main_v26_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))).trans ?_
    rw [Cert.ReferenceIdeal.Layers.first, a0, a1, a2, a3, a10, a11]
  · refine (Cert.ReferenceIdeal.Read.val_main_v53_eq m' c).trans ?_
    rw [Cert.ReferenceIdeal.Layers.second, Cert.ReferenceIdeal.Layers.first, a0, a1, a2, a3, a4, a5, a6, a10, a11, a12, a13]
  · refine (Cert.ReferenceIdeal.Read.val_main_v79_eq m' c).trans ?_
    rw [Cert.ReferenceIdeal.Layers.third, Cert.ReferenceIdeal.Layers.second, Cert.ReferenceIdeal.Layers.first,
      a0, a1, a2, a3, a4, a5, a6, a7, a8, a9, a10, a11, a12, a13, a14, a15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
